-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg10
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S4x2048x1024 .f32) (main_arg1 : FVec F S4x2048x1024 .f32) (main_arg2 : FVec F S4x2048x1024 .f32) (main_arg3 : IVec S4x2048x2048 32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x128x1024 : Shape := ⟨3, ![1, 128, 1024]⟩
abbrev S1x2048x1024 : Shape := ⟨3, ![1, 2048, 1024]⟩
abbrev S1x128x2048 : Shape := ⟨3, ![1, 128, 2048]⟩
abbrev S128x1024 : Shape := ⟨2, ![128, 1024]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩

abbrev nBuf : Space → Nat
  | .hbm => 27
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S4x2048x1024, .bf16⟩
  | .hbm, ⟨24, _⟩ => ⟨S8192x1024, .bf16⟩
  | .hbm, ⟨25, _⟩ => ⟨S4x2048x1024, .bf16⟩
  | .hbm, ⟨26, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1x128x1024, .f32⟩
  | .local _ .vmem, ⟨13, _⟩ => ⟨S1x128x1024, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x128x2048, .i32⟩
  | .local _ .vmem, ⟨19, _⟩ => ⟨S1x128x2048, .i32⟩
  | .local _ .vmem, ⟨20, _⟩ => ⟨S1024x1024, .bf16⟩
  | .local _ .vmem, ⟨21, _⟩ => ⟨S1024, .f32⟩
  | .local _ .vmem, ⟨22, _⟩ => ⟨S1024x1024, .bf16⟩
  | .local _ .vmem, ⟨23, _⟩ => ⟨S1024, .f32⟩
  | .local _ .vmem, ⟨24, _⟩ => ⟨S1x128x1024, .f32⟩
  | .local _ .vmem, ⟨25, _⟩ => ⟨S1x128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x128x2048 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x128x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  broadcasts_S1x1024_S128x1024 : S1x1024.Broadcasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  reduces_S128x2048_S128 : S128x2048.Reduces [1] S128
  shapeCasts_S128_S128x1 : S128.ShapeCasts S128x1
  broadcasts_S128x1_S128x2048 : S128x1.Broadcasts S128x2048
  shapeCasts_S128x1024_S1x128x1024 : S128x1024.ShapeCasts S1x128x1024
  dot_S1024x1024_S1024x1024_S1024x1024_1_0_0_1_n_n_wf : DotDims.WF S1024x1024 S1024x1024 S1024x1024 [1] [0] [0] [1] [] []
  dot_S128x1024_S1024x1024_S128x1024_1_0_0_1_n_n_wf : DotDims.WF S128x1024 S1024x1024 S128x1024 [1] [0] [0] [1] [] []
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x1024.size a ≤ S4x2048x1024.size a
  hwx2_0 : ∀ i : grid2.Coords, EltTy.bits .f32 = 32 ∨ (Rect.block (s := S4x2048x1024) S1x128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x1024.size a ≤ S4x2048x1024.size a
  hwx2_1 : ∀ i : grid2.Coords, EltTy.bits .bf16 = 32 ∨ (Rect.block (s := S4x2048x1024) S1x2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x1024.size a ≤ S4x2048x1024.size a
  hwx2_2 : ∀ i : grid2.Coords, EltTy.bits .bf16 = 32 ∨ (Rect.block (s := S4x2048x1024) S1x2048x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x2048.size a ≤ S4x2048x2048.size a
  hwx2_3 : ∀ i : grid2.Coords, EltTy.bits .i32 = 32 ∨ (Rect.block (s := S4x2048x2048) S1x128x2048.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .bf16 = 32 ∨ (Rect.block (s := S1024x1024) S1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x1024.size a ≤ S1024x1024.size a
  hwx2_6 : ∀ i : grid2.Coords, EltTy.bits .bf16 = 32 ∨ (Rect.block (s := S1024x1024) S1024x1024.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024.size a ≤ S1024.size a
  hwx2_7 : ∀ i : grid2.Coords, EltTy.bits .f32 = 32 ∨ (Rect.block (s := S1024) S1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x128x1024.size a ≤ S4x2048x1024.size a
  hwx2_8 : ∀ i : grid2.Coords, EltTy.bits .f32 = 32 ∨ (Rect.block (s := S4x2048x1024) S1x128x1024.size (cc2_transform_8 i) (hinb2_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x2048x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x128x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1024x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S1x128x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x2048, .f32⟩
  | .hbm, ⟨25, _⟩ => ⟨S_, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S_, .i32⟩
  | .hbm, ⟨30, _⟩ => ⟨S4x2048x2048, .i32⟩
  | .hbm, ⟨31, _⟩ => ⟨S4x2048x2048, .i1⟩
  | .hbm, ⟨32, _⟩ => ⟨S_, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_call0_v0 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Single-head attention with learned projections, as one function of the twelve argument arrays, entry by entry, over
  the extended reals.

  Each of the three inputs is projected by its weight matrix (rows of the matrix against the feature axis, plus a bias).
  A query position is scored against every key position by the inner product of the projected vectors, scaled by a
  fixed number; a position whose mask word is zero gets a fixed large negative score instead. Each row of scores is
  turned into weights: subtract the row's maximum, exponentiate, divide by the row's sum. The weights average the
  projected values, and the average is projected once more.
-/
import Idealize.ShloMosaic.PureOps.Ideal
import Idealize.ShloMosaic.Lib.ValueIdx

noncomputable section

open scoped BigOperators

namespace Cert.Attention

open Idealize.ShloMosaic Idealize.ShloMosaic.ValueIdx

/-- A batch of 4 sequences of 2048 positions of 1024 features. -/
abbrev Seqs := (⟨3, ![4, 2048, 1024]⟩ : Shape).Idx → EReal
/-- The mask words: one per batch, query position and key position. -/
abbrev Mask := (⟨3, ![4, 2048, 2048]⟩ : Shape).Idx → BitVec 32
/-- A 1024 × 1024 weight matrix, (output feature, input feature). -/
abbrev Weights := (⟨2, ![1024, 1024]⟩ : Shape).Idx → EReal
/-- A bias, one per output feature. -/
abbrev Bias := (⟨1, ![1024]⟩ : Shape).Idx → EReal
/-- A projected batch, by coordinates. -/
abbrev Proj := Fin 4 → Fin 2048 → Fin 1024 → EReal
/-- Scores or weights, by coordinates: batch, query position, key position. -/
abbrev Pairs := Fin 4 → Fin 2048 → Fin 2048 → EReal

/-- The linear layer: output feature `o` of position `s` is row `o` of the weights against the position's features,
    plus the bias. -/
def linear (x : Seqs) (W : Weights) (β : Bias) : Proj := fun b s o =>
  (∑ h : Fin 1024, x (ix3 b s h) * W (ix2 o h)) + β (ix1 o)

/-- The masked, scaled scores: the inner product of a projected query with a projected key times the word
    `0x3D000000` (one thirty-second), or the word `0xCE6E6B28` (minus a billion) where the mask word is zero. -/
def score (q k : Proj) (mask : Mask) : Pairs := fun b i j =>
  if mask (ix3 b i j) = 0#32 then Ideal.ofBits .f32 0xCE6E6B28#32
  else (∑ h : Fin 1024, q b i h * k b j h) * Ideal.ofBits .f32 0x3D000000#32

/-- The largest score of a row (a fold of `max` from the word of minus infinity). -/
def rowMax (s : Pairs) (b : Fin 4) (i : Fin 2048) : EReal :=
  (Finset.univ : Finset (Fin 2048)).fold max (Ideal.ofBits .f32 0xFF800000#32) (fun j => s b i j)

/-- The unnormalised weight: the exponential of a score less its row's maximum. -/
def weight (s : Pairs) : Pairs := fun b i j => Ideal.exp (s b i j - rowMax s b i)

/-- The normalised weight: the unnormalised one over its row's sum. -/
def prob (s : Pairs) : Pairs := fun b i j => Ideal.div (weight s b i j) (∑ j' : Fin 2048, weight s b i j')

/-- The weighted average of the projected values. -/
def context (p : Pairs) (v : Proj) : Proj := fun b i c => ∑ j : Fin 2048, p b i j * v b j c

/-- The attention layer at batch `b`, position `i`, output feature `o`. -/
def attentionAt (query key value : Seqs) (mask : Mask) (Wq : Weights) (bq : Bias) (Wk : Weights) (bk : Bias)
    (Wv : Weights) (bv : Bias) (Wo : Weights) (bo : Bias) (b : Fin 4) (i : Fin 2048) (o : Fin 1024) : EReal :=
  (∑ c : Fin 1024,
      context (prob (score (linear query Wq bq) (linear key Wk bk) mask)) (linear value Wv bv) b i c * Wo (ix2 o c))
    + bo (ix1 o)

/-- The attention layer as an array. -/
def attention (query key value : Seqs) (mask : Mask) (Wq : Weights) (bq : Bias) (Wk : Weights) (bk : Bias)
    (Wv : Weights) (bv : Bias) (Wo : Weights) (bo : Bias) : Seqs := fun idx =>
  attentionAt query key value mask Wq bq Wk bk Wv bv Wo bo (idx 0) (idx 1) (idx 2)

end Cert.Attention

end
-- ==== Proof.RowAttention.lean ====
/-
  The attention of ONE query position, and the whole layer read through it.

  Everything the layer computes at batch `b` and query position `i` depends on the projected query row `q b i`, on the
  projected keys and values of batch `b`, and on the mask's row `(b, i)`. So the scores, the weights and the weighted
  average can be stated for one row over plain coordinate functions; the layer's definitions are these at each row.
-/
import proofs.«112299_j31095563223601_2_alg».proof.Proof.Spec

noncomputable section

open scoped BigOperators

namespace Cert.Attention

open Idealize.ShloMosaic Idealize.ShloMosaic.ValueIdx

/-- The scores of one query row `q` against the 2048 key rows `k`, masked by the row `msk` of mask words. -/
def rowScore (q : Fin 1024 → EReal) (k : Fin 2048 → Fin 1024 → EReal) (msk : Fin 2048 → BitVec 32) (j : Fin 2048) : EReal :=
  if msk j = 0#32 then Ideal.ofBits .f32 0xCE6E6B28#32
  else (∑ h : Fin 1024, q h * k j h) * Ideal.ofBits .f32 0x3D000000#32

/-- The normalised weights of one row of scores: exponentials of the scores less their maximum, over their sum. -/
def rowWeights (s : Fin 2048 → EReal) (j : Fin 2048) : EReal :=
  Ideal.div (Ideal.exp (s j - (Finset.univ : Finset (Fin 2048)).fold max (Ideal.ofBits .f32 0xFF800000#32) s))
    (∑ j' : Fin 2048, Ideal.exp (s j' - (Finset.univ : Finset (Fin 2048)).fold max (Ideal.ofBits .f32 0xFF800000#32) s))

/-- The average of the value rows `v` under the weights `w`. -/
def rowContext (w : Fin 2048 → EReal) (v : Fin 2048 → Fin 1024 → EReal) (c : Fin 1024) : EReal :=
  ∑ j : Fin 2048, w j * v j c

/-- The layer's weighted average at `(b, i)` is the row's: only names are unfolded. -/
theorem context_eq_row (q k v : Proj) (mask : Mask) (b : Fin 4) (i : Fin 2048) (c : Fin 1024) :
    context (prob (score q k mask)) v b i c
      = rowContext (rowWeights (rowScore (q b i) (k b) (fun j => mask (ix3 b i j)))) (v b) c := rfl

end Cert.Attention

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibKeepdims.lean ====
/-
  Sums that keep a unit axis, read at an entry, for any length.

  A sum along the lanes of an `n × k` block gives a length-`n` vector; kept as an `n × 1` column it is summed again, down
  the column, into a one-entry vector, which is kept as a `1 × 1` cell. Each re-shaping moves no entry: position `r` of
  the vector is entry `(r, 0)` of the column, and the one entry of the one-entry vector is the one entry of the cell. The
  column sum at its one result entry is the sum of the column's `n` entries.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A length-`a` vector kept as an `a × 1` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt
  omega

/-- A one-entry vector kept as a `1 × 1` cell reads, at the cell's entry, the vector's entry. -/
theorem shapeCast_1_11_apply (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) := by
  refine shapeCast_apply x h j (ix1 (0 : Fin 1)) ?_
  rw [Shape.rowMajor_val_one, Shape.rowMajor_val_two]
  show (0 : ℕ) = (j 0).val * 1 + (j 1).val
  have h0 : (j 0).val < 1 := (j 0).isLt
  have h1 : (j 1).val < 1 := (j 1).isLt
  omega

/-- A `1 × 1` cell flattened to a scalar reads the cell's entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨0, ![]⟩ : Shape).rowMajor j).isLt
  have hn : (⟨0, ![]⟩ : Shape).numel = 1 := rfl
  omega

/-- The index of an `n × 1` column over the one result entry with the row `r` put back. -/
theorem lift_col {n : ℕ} (h : (⟨2, ![n, 1]⟩ : Shape).Reduces [0] ⟨1, ![1]⟩) (j : (⟨1, ![1]⟩ : Shape).Idx) (r : Fin n) :
    h.lift j r = ix2 r (0 : Fin 1) := by
  funext ax; apply Fin.ext
  match ax with
  | ⟨0, _⟩ => rfl
  | ⟨1, _⟩ =>
    show (j 0).val = 0
    have : (j 0).val < 1 := (j 0).isLt
    omega

/-- An f32 sum down an `n × 1` column from the zero word reads, at its one entry, the sum of the column's entries. -/
theorem colSum_f32_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (j : (⟨1, ![1]⟩ : Shape).Idx) :
    multiReduction .add [0] ⟨1, ![1]⟩ src 0x00000000#32 h hφ hacc j = ∑ r : Fin n, src (ix2 r (0 : Fin 1)) := by
  refine (Ideal.multiReduction_add_single src 0x00000000#32 h hφ hacc j).trans ?_
  exact Finset.sum_congr rfl fun r _ => congrArg src (lift_col h j r)

end Cert.Lib.Keepdims

end
-- ==== Proof.LibRowDots.lean ====
/-
  A matrix product that pairs the ROWS of its two operands, read at an entry, for any sizes.

  When the dimension numbers of a matrix product contract the second axis of an `a × k` left operand with the second
  axis of a `b × k` right operand (no batch axes; the first axis of each operand is kept), entry `(p, q)` of the
  `a × b` result, accumulated from zero, is the inner product of row `p` of the left operand with row `q` of the right
  one: the sum over the shared coordinate `c` of `A (p, c) * B (q, c)`, in the coordinate's order. This is the product
  of the left operand with the transpose of the right one, without a transpose being formed.
-/
import Idealize.ShloMosaic.Lib.Pipeline.Value
import Idealize.ShloMosaic.Lib.ValueIdx
import Idealize.ShloMosaic.PureOps.Ideal.Laws

noncomputable section

open scoped BigOperators

namespace Cert.Lib.RowDots

open Idealize.ShloMosaic Idealize.ShloMosaic.ValueIdx

variable {a b k : ℕ}

/-- A coordinate of an index read at two positions that are the same number. -/
theorem coord_congr {s : Shape} (j : s.Idx) (p q : ℕ) (hp : p < s.rank) (hq : q < s.rank) (h : p = q) :
    (j ⟨p, hp⟩).val = (j ⟨q, hq⟩).val := by subst h; rfl

/-- The left operand's entry paired with result entry `j`: its kept axis reads the result's first coordinate. -/
theorem lhs_kept (D : DotDims ⟨2, ![a, k]⟩ ⟨2, ![b, k]⟩ ⟨2, ![a, b]⟩) (hlb : D.lhsBatch = []) (hln : D.lhsNonContracting = [0])
    (j : (⟨2, ![a, b]⟩ : Shape).Idx) (c : D.contr.Idx) : (D.lhsIdx j c 0).val = (j 0).val := by
  unfold DotDims.lhsIdx
  rw [dif_neg (by rw [hlb]; exact List.not_mem_nil), dif_pos (by rw [hln]; exact List.mem_singleton.mpr rfl)]
  simp only [Fin.val_cast]
  exact coord_congr j _ 0 _ (show 0 < 2 by omega) (by simp [hlb, hln])

/-- The right operand's entry paired with result entry `j`: its kept axis reads the result's second coordinate. -/
theorem rhs_kept (D : DotDims ⟨2, ![a, k]⟩ ⟨2, ![b, k]⟩ ⟨2, ![a, b]⟩) (hlb : D.lhsBatch = []) (hln : D.lhsNonContracting = [0])
    (hrb : D.rhsBatch = []) (hrn : D.rhsNonContracting = [0])
    (j : (⟨2, ![a, b]⟩ : Shape).Idx) (c : D.contr.Idx) : (D.rhsIdx j c 0).val = (j 1).val := by
  unfold DotDims.rhsIdx
  rw [dif_neg (by rw [hrb]; exact List.not_mem_nil), dif_pos (by rw [hrn]; exact List.mem_singleton.mpr rfl)]
  simp only [Fin.val_cast]
  exact coord_congr j _ 1 _ (show 1 < 2 by omega) (by simp [hlb, hln, hrn])

/-- Entry `(p, q)` of a product from zero that contracts the second axis of both operands: row `p` of the left
    operand against row `q` of the right one. -/
theorem matmul_rows_apply {φ₁ φ₂ : FTy} (D : DotDims ⟨2, ![a, k]⟩ ⟨2, ![b, k]⟩ ⟨2, ![a, b]⟩)
    (hlb : D.lhsBatch = []) (hln : D.lhsNonContracting = [0]) (hlc : D.lhsContracting = [1])
    (hrb : D.rhsBatch = []) (hrn : D.rhsNonContracting = [0]) (hrc : D.rhsContracting = [1])
    (hrank : D.contr.rank = 1) (hsize : D.contr.size ⟨0, by omega⟩ = k) (prec : Option ContractPrecision)
    (A : FVec Ideal ⟨2, ![a, k]⟩ φ₁) (B : FVec Ideal ⟨2, ![b, k]⟩ φ₂) (p : Fin a) (q : Fin b) :
    matmul D prec A B (constant ⟨2, ![a, b]⟩ .f32 0x00000000#32) (ix2 p q) = ∑ c : Fin k, A (ix2 p c) * B (ix2 q c) := by
  show FloatOps.matmul D prec A B _ (ix2 p q) = _
  rw [Ideal.matmul_constant_zero_apply, ← Equiv.sum_comp (contrEquiv1 D k hrank hsize).symm]
  refine Finset.sum_congr rfl fun c _ => ?_
  have hc := contrEquiv1_symm_val D k hrank hsize c
  have el : D.lhsIdx (ix2 p q) ((contrEquiv1 D k hrank hsize).symm c) = ix2 p c := funext fun ax => Fin.ext (by
    match ax with
    | ⟨0, _⟩ => exact lhs_kept D hlb hln _ _
    | ⟨1, _⟩ => exact (D.lhsIdx_val_of_single hlc _ _).trans hc)
  have er : D.rhsIdx (ix2 p q) ((contrEquiv1 D k hrank hsize).symm c) = ix2 q c := funext fun ax => Fin.ext (by
    match ax with
    | ⟨0, _⟩ => exact rhs_kept D hlb hln hrb hrn _ _
    | ⟨1, _⟩ => exact (D.rhsIdx_val_of_single hrc _ _).trans hc)
  rw [el, er]

end Cert.Lib.RowDots

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibFlags.lean ====
import Idealize.ShloMosaic.PureOps
import Idealize.ShloMosaic.Lib.ValueIdx

/-!
# One-bit flags and the selects they drive

General facts about the one-bit results of integer comparisons and the logic on them, for any width of word where
stated so: a select driven by the equality flag of two words is an if-then-else on their equality; the flags of
`eq` and `slt` as decidable propositions; `or` and `xor`-with-one on flags as disjunction and negation.
-/

namespace Cert.Lib.Flags

open Idealize.ShloMosaic Idealize.ShloMosaic.ValueIdx

/-- The equality flag of two words is one exactly when they are equal. -/
theorem cmpi_eq_eq_one_iff {w : ℕ} (x y : BitVec w) : IntOp.cmpi .eq x y = 1#1 ↔ x = y := by
  show BitVec.ofBool (x == y) = 1#1 ↔ x = y
  by_cases h : x = y
  · simp [h]
  · have : (x == y) = false := by rw [beq_eq_false_iff_ne]; exact h
    simp [this, h]

/-- A flag is one or zero. -/
theorem flag_cases (f : BitVec 1) : f = 1#1 ∨ f = 0#1 := by
  by_cases h : f = 1#1
  · exact Or.inl h
  · exact Or.inr (eq_zero_of_ne_one h)

/-- A select driven by a flag is an if-then-else on the flag being one. -/
theorem select_eq_ite {α : Type} (f : BitVec 1) (u v : α) : Scalar.select f u v = if f = 1#1 then u else v := by
  rcases flag_cases f with h | h
  · rw [h, select_one, if_pos rfl]
  · rw [h, select_zero, if_neg (by decide)]

/-- A select driven by the equality flag of two words is an if-then-else on their equality. -/
theorem select_cmpi_eq {α : Type} {w : ℕ} (x y : BitVec w) (u v : α) :
    Scalar.select (IntOp.cmpi .eq x y) u v = if x = y then u else v := by
  rw [select_eq_ite]
  exact if_congr (cmpi_eq_eq_one_iff x y) rfl rfl

/-- The `or` of two flags is one exactly when one of them is. -/
theorem ori_eq_one_iff (a b : BitVec 1) : IntOp.ori a b = 1#1 ↔ a = 1#1 ∨ b = 1#1 := by
  revert a b; decide

/-- A flag `xor`ed with one is one exactly when the flag is not. -/
theorem xori_one_eq_one_iff (a : BitVec 1) : IntOp.xori a 1#1 = 1#1 ↔ ¬ a = 1#1 := by
  revert a; decide

/-- The signed less-than flag of the words of two naturals below `2^31` is one exactly when the first is smaller. -/
theorem cmpi_slt_ofNat_eq_one_iff {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ a < b
  have ea : (BitVec.ofNat 32 a).toInt = (a : ℤ) := by
    have hn : (BitVec.ofNat 32 a).toNat = a := by rw [BitVec.toNat_ofNat]; exact Nat.mod_eq_of_lt (by omega)
    rw [BitVec.toInt_eq_toNat_of_lt (by rw [hn]; omega), hn]
  have eb : (BitVec.ofNat 32 b).toInt = (b : ℤ) := by
    have hn : (BitVec.ofNat 32 b).toNat = b := by rw [BitVec.toNat_ofNat]; exact Nat.mod_eq_of_lt (by omega)
    rw [BitVec.toInt_eq_toNat_of_lt (by rw [hn]; omega), hn]
  rw [BitVec.slt, ea, eb]
  by_cases h : a < b
  · simp [h]
  · simp [h]

end Cert.Lib.Flags
-- ==== Proof.BlockPayload.lean ====
/-
  What the attention kernel's body computes from its blocks, entry by entry.

  At one grid point the body holds a block of 128 query rows, the projected keys and values of the batch (2048 rows
  each), the 128 × 2048 block of mask words, and the two resident weight matrices (already transposed) with their
  biases. It projects the query rows, scores them against every key row, masks, normalises each row of scores, averages
  the value rows, and projects the average. Each stage is read at an entry; a change of float format is the identity
  over the extended reals.
-/
import proofs.«112299_j31095563223601_2_alg».proof.Proof.Gen.KernelIdeal.Skeleton
import proofs.«112299_j31095563223601_2_alg».proof.Proof.RowAttention
import proofs.«112299_j31095563223601_2_alg».proof.Proof.LibRowMax
import proofs.«112299_j31095563223601_2_alg».proof.Proof.LibRowOps
import proofs.«112299_j31095563223601_2_alg».proof.Proof.LibKeepdims
import proofs.«112299_j31095563223601_2_alg».proof.Proof.LibRowDots
import proofs.«112299_j31095563223601_2_alg».proof.Proof.LibTwoBlocks
import proofs.«112299_j31095563223601_2_alg».proof.Proof.LibFlags
import Idealize.ShloMosaic.Lib.ValueLayout
import Idealize.ShloMosaic.Lib.Pipeline.Value
import Idealize.ShloMosaic.PureOps.Ideal.Laws

noncomputable section

open scoped BigOperators

namespace Cert.Attention.Block

open Cert.KernelIdeal Cert.KernelIdeal.Gen Idealize.ShloMosaic Idealize.ShloMosaic.ValueIdx Cert.Attention

/-! ## The stages of the body, as functions of the blocks -/

/-- The projected query rows: the block times the transposed weights, plus the bias along every row. -/
def projected (v0 : FVec Ideal S1x128x1024 .f32) (v3 : FVec Ideal S1024x1024 .bf16) (v6 : FVec Ideal S1024 .f32) :
    FVec Ideal S128x1024 .bf16 :=
  truncf .bf16
    (addf
      (matmul dot_S128x1024_S1024x1024_S128x1024_1_0_0_1_n_n none
        (truncf .bf16 (shapeCast S128x1024 v0 shapeCasts_S1x128x1024_S128x1024) bitsLt_bf16_f32)
        (shapeCast S1024x1024 v3 shapeCasts_S1024x1024_S1024x1024) (constant S128x1024 .f32 0x00000000#32))
      (broadcastTo S128x1024 (shapeCast S1x1024 v6 shapeCasts_S1024_S1x1024) broadcasts_S1x1024_S128x1024))
    bitsLt_bf16_f32

/-- The masked, scaled scores of the projected query rows against the key rows. -/
def scored (q : FVec Ideal S128x1024 .bf16) (v11 : FVec Ideal S1x2048x1024 .bf16) (v18 : IVec S1x128x2048 32) :
    FVec Ideal S128x2048 .f32 :=
  select (cmpi .eq (shapeCast S128x2048 v18 shapeCasts_S1x128x2048_S128x2048) (broadcast S128x2048 0#32))
    (broadcast S128x2048 (Scalar.ofBits (F := Ideal) .f32 0xCE6E6B28#32))
    (mulf
      (matmul dot_S128x1024_S2048x1024_S128x2048_1_1_0_0_n_n none q
        (shapeCast S2048x1024 v11 shapeCasts_S1x2048x1024_S2048x1024) (constant S128x2048 .f32 0x00000000#32))
      (broadcast S128x2048 (Scalar.ofBits (F := Ideal) .f32 0x3D000000#32)))

/-- The exponentials of the scores less their row's maximum. -/
def shifted (s : FVec Ideal S128x2048 .f32) : FVec Ideal S128x2048 .f32 :=
  exp (subf s
    (broadcastTo S128x2048
      (shapeCast S128x1 (multiReduction .maximumf [1] S128 s 0xFF800000#32 reduces_S128x2048_S128 (.inl rfl) rfl)
        shapeCasts_S128_S128x1) broadcasts_S128x1_S128x2048))

/-- Each row of exponentials over its sum. -/
def normalised (e : FVec Ideal S128x2048 .f32) : FVec Ideal S128x2048 .bf16 :=
  truncf .bf16
    (divf e
      (broadcastTo S128x2048
        (shapeCast S128x1 (multiReduction .add [1] S128 e 0x00000000#32 reduces_S128x2048_S128 (.inl rfl) rfl)
          shapeCasts_S128_S128x1) broadcasts_S128x1_S128x2048))
    bitsLt_bf16_f32

/-- The weights times the value rows. -/
def averaged (w : FVec Ideal S128x2048 .bf16) (v13 : FVec Ideal S1x2048x1024 .bf16) : FVec Ideal S128x1024 .f32 :=
  matmul dot_S128x2048_S2048x1024_S128x1024_1_0_0_1_n_n none w
    (shapeCast S2048x1024 v13 shapeCasts_S1x2048x1024_S2048x1024) (constant S128x1024 .f32 0x00000000#32)

/-- The body's first payload is the stages composed. -/
theorem pay2_eq (v0 : FVec Ideal S1x128x1024 .f32) (v3 : FVec Ideal S1024x1024 .bf16) (v6 : FVec Ideal S1024 .f32)
    (v11 v13 : FVec Ideal S1x2048x1024 .bf16) (v18 : IVec S1x128x2048 32) :
    k2_pay2 (F := Ideal) v0 v3 v6 v11 v13 v18
      = averaged (normalised (shifted (scored (projected v0 v3 v6) v11 v18))) v13 := rfl

/-! ## Each stage at an entry -/

theorem projected_apply (v0 : FVec Ideal S1x128x1024 .f32) (v3 : FVec Ideal S1024x1024 .bf16) (v6 : FVec Ideal S1024 .f32)
    (p : Fin 128) (o : Fin 1024) :
    projected v0 v3 v6 (ix2 p o)
      = (∑ h : Fin 1024, v0 (ix3 (0 : Fin 1) p h) * v3 (ix2 h o)) + v6 (ix1 o) := by
  unfold projected
  refine congrArg₂ (fun a b : EReal => a + b) ?_ ?_
  · refine (Cert.Lib.TwoBlocks.plain_matmul_zero_apply _ rfl none _ _ p o).trans ?_
    refine Finset.sum_congr rfl fun h _ => congrArg₂ (fun a b : EReal => a * b) ?_ ?_
    · exact shapeCast_1ab_ab_apply v0 _ p h
    · exact congrFun (shapeCast_self v3 _) (ix2 h o)
  · refine (broadcastTo_1b_ab_apply _ _ p o).trans ?_
    exact shapeCast_a_1a_apply v6 _ (0 : Fin 1) o

theorem scored_apply (q : FVec Ideal S128x1024 .bf16) (v11 : FVec Ideal S1x2048x1024 .bf16) (v18 : IVec S1x128x2048 32)
    (p : Fin 128) (j : Fin 2048) :
    scored q v11 v18 (ix2 p j)
      = if v18 (ix3 (0 : Fin 1) p j) = 0#32 then Ideal.ofBits .f32 0xCE6E6B28#32
        else (∑ h : Fin 1024, q (ix2 p h) * v11 (ix3 (0 : Fin 1) j h)) * Ideal.ofBits .f32 0x3D000000#32 := by
  unfold scored
  refine (Cert.Lib.Flags.select_cmpi_eq _ _ _ _).trans ?_
  refine if_congr ?_ rfl ?_
  · exact Eq.congr (shapeCast_1ab_ab_apply v18 _ p j) rfl
  · refine congrArg₂ (fun a b : EReal => a * b) ?_ rfl
    refine (Cert.Lib.RowDots.matmul_rows_apply _ rfl rfl rfl rfl rfl rfl rfl rfl none _ _ p j).trans ?_
    exact Finset.sum_congr rfl fun h _ => congrArg₂ (fun a b : EReal => a * b) rfl (shapeCast_1ab_ab_apply v11 _ j h)

theorem shifted_apply (s : FVec Ideal S128x2048 .f32) (p : Fin 128) (j : Fin 2048) :
    shifted s (ix2 p j)
      = Ideal.exp (s (ix2 p j)
          - (Finset.univ : Finset (Fin 2048)).fold max (Ideal.ofBits .f32 0xFF800000#32) (fun j' => s (ix2 p j'))) := by
  unfold shifted
  refine congrArg Ideal.exp (congrArg₂ (fun a b : EReal => a - b) rfl ?_)
  refine (Cert.Lib.RowOps.broadcastTo_a1_ab_apply _ _ p j).trans ?_
  refine (Cert.Lib.Keepdims.shapeCast_a_a1_apply _ _ p (0 : Fin 1)).trans ?_
  exact Cert.Lib.RowMax.laneMax_apply s _ _ _ p

theorem normalised_apply (e : FVec Ideal S128x2048 .f32) (p : Fin 128) (j : Fin 2048) :
    normalised e (ix2 p j) = Ideal.div (e (ix2 p j)) (∑ j' : Fin 2048, e (ix2 p j')) := by
  unfold normalised
  refine congrArg₂ Ideal.div rfl ?_
  refine (Cert.Lib.RowOps.broadcastTo_a1_ab_apply _ _ p j).trans ?_
  refine (Cert.Lib.Keepdims.shapeCast_a_a1_apply _ _ p (0 : Fin 1)).trans ?_
  exact Cert.Lib.RowOps.laneSum_apply e _ _ _ p

theorem averaged_apply (w : FVec Ideal S128x2048 .bf16) (v13 : FVec Ideal S1x2048x1024 .bf16) (p : Fin 128) (c : Fin 1024) :
    averaged w v13 (ix2 p c) = ∑ j : Fin 2048, w (ix2 p j) * v13 (ix3 (0 : Fin 1) j c) := by
  unfold averaged
  refine (Cert.Lib.TwoBlocks.plain_matmul_zero_apply _ rfl none _ _ p c).trans ?_
  exact Finset.sum_congr rfl fun j _ => congrArg₂ (fun a b : EReal => a * b) rfl (shapeCast_1ab_ab_apply v13 _ j c)

/-! ## The first payload at an entry: one query row's attention -/

/-- Row `p` of the block's averaged values is the row attention of the projected query row `p` against the batch's key
    and value rows under the mask's row `p`. -/
theorem pay2_apply (v0 : FVec Ideal S1x128x1024 .f32) (v3 : FVec Ideal S1024x1024 .bf16) (v6 : FVec Ideal S1024 .f32)
    (v11 v13 : FVec Ideal S1x2048x1024 .bf16) (v18 : IVec S1x128x2048 32) (p : Fin 128) (c : Fin 1024) :
    k2_pay2 (F := Ideal) v0 v3 v6 v11 v13 v18 (ix2 p c)
      = rowContext
          (rowWeights (rowScore (fun o => (∑ h : Fin 1024, v0 (ix3 (0 : Fin 1) p h) * v3 (ix2 h o)) + v6 (ix1 o))
            (fun j h => v11 (ix3 (0 : Fin 1) j h)) (fun j => v18 (ix3 (0 : Fin 1) p j))))
          (fun j c' => v13 (ix3 (0 : Fin 1) j c')) c := by
  rw [pay2_eq, averaged_apply]
  unfold rowContext
  refine Finset.sum_congr rfl fun j _ => congrArg₂ (fun a b : EReal => a * b) ?_ rfl
  have hs : (fun j' : Fin 2048 => scored (projected v0 v3 v6) v11 v18 (ix2 p j'))
      = rowScore (fun o => (∑ h : Fin 1024, v0 (ix3 (0 : Fin 1) p h) * v3 (ix2 h o)) + v6 (ix1 o))
          (fun j h => v11 (ix3 (0 : Fin 1) j h)) (fun j => v18 (ix3 (0 : Fin 1) p j)) := by
    funext j'
    rw [scored_apply]
    unfold rowScore
    refine if_congr Iff.rfl rfl (congrArg₂ (fun a b : EReal => a * b) ?_ rfl)
    exact Finset.sum_congr rfl fun h _ => congrArg₂ (fun a b : EReal => a * b) (projected_apply v0 v3 v6 p h) rfl
  rw [normalised_apply, ← hs]
  unfold rowWeights
  refine congrArg₂ Ideal.div (shifted_apply _ p j) ?_
  exact Finset.sum_congr rfl fun j' _ => shifted_apply _ p j'

/-! ## The second payload: the output projection -/

theorem pay1_apply (v34 : FVec Ideal S128x1024 .f32) (v36 : FVec Ideal S1024x1024 .bf16) (v39 : FVec Ideal S1024 .f32)
    (u : Fin 1) (p : Fin 128) (o : Fin 1024) :
    k2_pay1 (F := Ideal) v34 v36 v39 (ix3 u p o)
      = (∑ c : Fin 1024, v34 (ix2 p c) * v36 (ix2 c o)) + v39 (ix1 o) := by
  unfold k2_pay1
  refine (shapeCast_ab_1ab_apply _ _ u p o).trans ?_
  refine congrArg₂ (fun a b : EReal => a + b) ?_ ?_
  · refine (Cert.Lib.TwoBlocks.plain_matmul_zero_apply _ rfl none _ _ p o).trans ?_
    exact Finset.sum_congr rfl fun c _ => congrArg₂ (fun a b : EReal => a * b) rfl (congrFun (shapeCast_self v36 _) (ix2 c o))
  · refine (broadcastTo_1b_ab_apply _ _ p o).trans ?_
    exact shapeCast_a_1a_apply v39 _ (0 : Fin 1) o

end Cert.Attention.Block

end
-- ==== Proof.AttentionRegion.lean ====
/-
  The attention kernel's output array after its 64 grid points, as one function of the arrays the region is entered with.

  Grid point (b, i) reads rows 128 i … 128 i + 127 of batch b of the queries and of the mask, the whole of batch b of
  the projected keys and values, and the resident weights and biases, and writes rows 128 i … 128 i + 127 of batch b of
  the output. The 64 output blocks tile the array, so every entry of the array is the row attention of its own row.
-/
import proofs.«112299_j31095563223601_2_alg».proof.Proof.Gen.KernelIdeal.Frame
import proofs.«112299_j31095563223601_2_alg».proof.Proof.BlockPayload

set_option maxRecDepth 16384

noncomputable section

open scoped BigOperators

namespace Cert.Attention.Region

open Cert.KernelIdeal Cert.KernelIdeal.Gen Idealize.ShloMosaic Idealize.ShloMosaic.TcCoe Idealize.ShloMosaic.ValueIdx Idealize.SL.Sem
open Idealize.ShloMosaic.Pipeline (Dat)
open Cert.Attention

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One output entry from the data of its row: the query row, the batch's key and value rows, the mask's row, the
    two weight matrices (input feature first) and their biases, and the output feature. -/
def entry (qrow : Fin 1024 → EReal) (k v : Fin 2048 → Fin 1024 → EReal) (msk : Fin 2048 → BitVec 32)
    (wq : Fin 1024 → Fin 1024 → EReal) (bq : Fin 1024 → EReal) (wo : Fin 1024 → Fin 1024 → EReal) (bo : Fin 1024 → EReal)
    (o : Fin 1024) : EReal :=
  (∑ c : Fin 1024,
      rowContext (rowWeights (rowScore (fun o' => (∑ h : Fin 1024, qrow h * wq h o') + bq o') k msk)) v c * wo c o)
    + bo o

theorem entry_congr {q q' : Fin 1024 → EReal} {k k' v v' : Fin 2048 → Fin 1024 → EReal} {msk msk' : Fin 2048 → BitVec 32}
    {wq wq' : Fin 1024 → Fin 1024 → EReal} {bq bq' : Fin 1024 → EReal} {wo wo' : Fin 1024 → Fin 1024 → EReal}
    {bo bo' : Fin 1024 → EReal} {o o' : Fin 1024} (h0 : q = q') (h1 : k = k') (h2 : v = v') (h3 : msk = msk') (h4 : wq = wq')
    (h5 : bq = bq') (h6 : wo = wo') (h7 : bo = bo') (h8 : o = o') :
    entry q k v msk wq bq wo bo o = entry q' k' v' msk' wq' bq' wo' bo' o' := by
  subst h0 h1 h2 h3 h4 h5 h6 h7 h8; rfl

/-- The output array as a function of the queries `a0`, the projected keys `a1` and values `a2`, the mask `a3`, the
    transposed query weights `a4` with bias `a5` and the transposed output weights `a6` with bias `a7`. -/
def fused (a0 a1 a2 : S4x2048x1024.Idx → EReal) (a3 : S4x2048x2048.Idx → BitVec 32) (a4 : S1024x1024.Idx → EReal)
    (a5 : S1024.Idx → EReal) (a6 : S1024x1024.Idx → EReal) (a7 : S1024.Idx → EReal) : S4x2048x1024.Idx → EReal := fun idx =>
  entry (fun h => a0 (ix3 (idx 0) (idx 1) h)) (fun j h => a1 (ix3 (idx 0) j h)) (fun j c => a2 (ix3 (idx 0) j c))
    (fun j => a3 (ix3 (idx 0) (idx 1) j)) (fun h o => a4 (ix2 h o)) (fun o => a5 (ix1 o)) (fun c o => a6 (ix2 c o))
    (fun o => a7 (ix1 o)) (idx 2)

/-- What the body leaves in the output block, at an entry: the entry of row `p` of the query block. -/
theorem out_apply (x0 : FVec Ideal S1x128x1024 .f32) (x1 x2 : FVec Ideal S1x2048x1024 .bf16) (x3 : IVec S1x128x2048 32)
    (x4 : FVec Ideal S1024x1024 .bf16) (x5 : FVec Ideal S1024 .f32) (x6 : FVec Ideal S1024x1024 .bf16) (x7 : FVec Ideal S1024 .f32)
    (u : Fin 1) (p : Fin 128) (o : Fin 1024) :
    out2_8 (F := Ideal) x0 x1 x2 x3 x4 x5 x6 x7 (ix3 u p o)
      = entry (fun h => x0 (ix3 (0 : Fin 1) p h)) (fun j h => x1 (ix3 (0 : Fin 1) j h)) (fun j c => x2 (ix3 (0 : Fin 1) j c))
          (fun j => x3 (ix3 (0 : Fin 1) p j)) (fun h o' => x4 (ix2 h o')) (fun o' => x5 (ix1 o')) (fun c o' => x6 (ix2 c o'))
          (fun o' => x7 (ix1 o')) o := by
  unfold out2_8
  rw [View.canon_unit_zero hz3]
  simp only [View.ld_unit_zero (S := S1x128x1024) hz3, View.ld_unit_zero (S := S1024x1024) hz2, View.ld_unit_zero (S := S1024) hz1,
    View.ld_unit_zero (S := S1x2048x1024) hz3, View.ld_unit_zero (S := S1x128x2048) hz3]
  rw [Block.pay1_apply]
  unfold entry
  refine congrArg₂ (fun a b : EReal => a + b) (Finset.sum_congr rfl fun c _ => congrArg₂ (fun a b : EReal => a * b) ?_ rfl) rfl
  exact Block.pay2_apply x0 x4 x5 x1 x2 x3 p c

/-- The printed index maps over the grid: the query and mask blocks move with the output block on the first two axes,
    the key and value blocks on the first only, the weights and biases stay; and the output block's indices range over
    4 batches and 16 row blocks. -/
theorem idx_facts : ∀ t : Fin cfg2.N,
    win2_0.index t (0 : Fin 3) = win2_8.index t (0 : Fin 3) ∧ win2_0.index t (1 : Fin 3) = win2_8.index t (1 : Fin 3)
    ∧ win2_0.index t (2 : Fin 3) = 0
    ∧ win2_1.index t (0 : Fin 3) = win2_8.index t (0 : Fin 3) ∧ win2_1.index t (1 : Fin 3) = 0 ∧ win2_1.index t (2 : Fin 3) = 0
    ∧ win2_2.index t (0 : Fin 3) = win2_8.index t (0 : Fin 3) ∧ win2_2.index t (1 : Fin 3) = 0 ∧ win2_2.index t (2 : Fin 3) = 0
    ∧ win2_3.index t (0 : Fin 3) = win2_8.index t (0 : Fin 3) ∧ win2_3.index t (1 : Fin 3) = win2_8.index t (1 : Fin 3)
    ∧ win2_3.index t (2 : Fin 3) = 0
    ∧ win2_4.index t (0 : Fin 2) = 0 ∧ win2_4.index t (1 : Fin 2) = 0 ∧ win2_5.index t (0 : Fin 1) = 0
    ∧ win2_6.index t (0 : Fin 2) = 0 ∧ win2_6.index t (1 : Fin 2) = 0 ∧ win2_7.index t (0 : Fin 1) = 0
    ∧ win2_8.index t (2 : Fin 3) = 0 ∧ win2_8.index t (0 : Fin 3) < 4 ∧ win2_8.index t (1 : Fin 3) < 16 :=
  (by decide +kernel : ∀ t : Fin grid2.N, _)

/-- Every (batch, row block) is some grid point's. -/
theorem idx_onto : ∀ (q0 : Fin 4) (q1 : Fin 16), ∃ t : Fin cfg2.N, win2_8.index t = ![q0.val, q1.val, 0] :=
  (by decide +kernel : ∀ (q0 : Fin 4) (q1 : Fin 16), ∃ t : Fin grid2.N, win2_8.index t = ![q0.val, q1.val, 0])

variable (V : (c : Dev nD) → (b : Ref sig .tc) → Buf (Elt Ideal) ((c : Thread nD τ).loc b))

theorem flushed_eq (c : Dev nD) (t : Fin cfg2.N) :
    (dat2 (F := Ideal) V c).flushed 8 t = ((cfg2.win 8).blk t).view.read (Elt Ideal)
      (fused (V c main_arg0) (V c main_v11) (V c main_v13) (V c main_arg3) (V c main_v1) (V c main_arg5) (V c main_v7) (V c main_arg11)) := by
  show (cfg2.win 8).cut (grid2.coords t) ((dat2 V c).after 8 t) = _
  rw [after2_8]
  funext y
  have hy0 : (y 0).val < 1 := (y 0).isLt
  have hy1 : (y 1).val < 128 := (y 1).isLt
  have hy2 : (y 2).val < 1024 := (y 2).isLt
  have hy : (cfg2.win 8).xinj (grid2.coords t) y
      = ix3 (⟨(y 0).val, hy0⟩ : Fin 1) (⟨(y 1).val, hy1⟩ : Fin 128) (⟨(y 2).val, hy2⟩ : Fin 1024) :=
    funext fun a => Fin.ext (by
      match a with
      | ⟨0, _⟩ => rfl
      | ⟨1, _⟩ => rfl
      | ⟨2, _⟩ => rfl)
  show out2_8 (iblk2 V c 0 t) (iblk2 V c 1 t) (iblk2 V c 2 t) (iblk2 V c 3 t) (iblk2 V c 4 t) (iblk2 V c 5 t)
      (iblk2 V c 6 t) (iblk2 V c 7 t) ((cfg2.win 8).xinj (grid2.coords t) y)
    = fused (V c main_arg0) (V c main_v11) (V c main_v13) (V c main_arg3) (V c main_v1) (V c main_arg5) (V c main_v7)
        (V c main_arg11) (((cfg2.win 8).blk t).view.emb y)
  rw [hy, out_apply]
  unfold fused
  obtain ⟨f00, f01, f02, f10, f11, f12, f20, f21, f22, f30, f31, f32, f40, f41, f50, f60, f61, f70, f82, f80, f81⟩ := idx_facts t
  have e0 : (fun (h : Fin 1024) => iblk2 V c 0 t (ix3 (0 : Fin 1) (⟨(y 1).val, hy1⟩ : Fin 128) h)) = fun (h : Fin 1024) => (V c main_arg0 : S4x2048x1024.Idx → EReal) (ix3 ((((cfg2.win 8).blk t).view.emb y) 0) ((((cfg2.win 8).blk t).view.emb y) 1) h) := by
    funext h
    show (V c main_arg0 : S4x2048x1024.Idx → EReal) (((cfg2.win 0).blk t).view.emb (ix3 (0 : Fin 1) (⟨(y 1).val, hy1⟩ : Fin 128) h)) = _
    refine congrArg (V c main_arg0 : S4x2048x1024.Idx → EReal) (funext fun a => Fin.ext ?_)
    match a with
    | ⟨0, _⟩ => show win2_0.index t (0 : Fin 3) * 1 + 1 * 0 = win2_8.index t (0 : Fin 3) * 1 + 1 * (y 0).val; omega
    | ⟨1, _⟩ => show win2_0.index t (1 : Fin 3) * 128 + 1 * (y 1).val = win2_8.index t (1 : Fin 3) * 128 + 1 * (y 1).val; omega
    | ⟨2, _⟩ => show win2_0.index t (2 : Fin 3) * 1024 + 1 * h.val = h.val; omega
  have e1 : (fun (j : Fin 2048) (h : Fin 1024) => iblk2 V c 1 t (ix3 (0 : Fin 1) j h)) = fun (j : Fin 2048) (h : Fin 1024) => (V c main_v11 : S4x2048x1024.Idx → EReal) (ix3 ((((cfg2.win 8).blk t).view.emb y) 0) j h) := by
    funext j h
    show (V c main_v11 : S4x2048x1024.Idx → EReal) (((cfg2.win 1).blk t).view.emb (ix3 (0 : Fin 1) j h)) = _
    refine congrArg (V c main_v11 : S4x2048x1024.Idx → EReal) (funext fun a => Fin.ext ?_)
    match a with
    | ⟨0, _⟩ => show win2_1.index t (0 : Fin 3) * 1 + 1 * 0 = win2_8.index t (0 : Fin 3) * 1 + 1 * (y 0).val; omega
    | ⟨1, _⟩ => show win2_1.index t (1 : Fin 3) * 2048 + 1 * j.val = j.val; omega
    | ⟨2, _⟩ => show win2_1.index t (2 : Fin 3) * 1024 + 1 * h.val = h.val; omega
  have e2 : (fun (j : Fin 2048) (h : Fin 1024) => iblk2 V c 2 t (ix3 (0 : Fin 1) j h)) = fun (j : Fin 2048) (h : Fin 1024) => (V c main_v13 : S4x2048x1024.Idx → EReal) (ix3 ((((cfg2.win 8).blk t).view.emb y) 0) j h) := by
    funext j h
    show (V c main_v13 : S4x2048x1024.Idx → EReal) (((cfg2.win 2).blk t).view.emb (ix3 (0 : Fin 1) j h)) = _
    refine congrArg (V c main_v13 : S4x2048x1024.Idx → EReal) (funext fun a => Fin.ext ?_)
    match a with
    | ⟨0, _⟩ => show win2_2.index t (0 : Fin 3) * 1 + 1 * 0 = win2_8.index t (0 : Fin 3) * 1 + 1 * (y 0).val; omega
    | ⟨1, _⟩ => show win2_2.index t (1 : Fin 3) * 2048 + 1 * j.val = j.val; omega
    | ⟨2, _⟩ => show win2_2.index t (2 : Fin 3) * 1024 + 1 * h.val = h.val; omega
  have e3 : (fun (j : Fin 2048) => iblk2 V c 3 t (ix3 (0 : Fin 1) (⟨(y 1).val, hy1⟩ : Fin 128) j)) = fun (j : Fin 2048) => (V c main_arg3 : S4x2048x2048.Idx → BitVec 32) (ix3 ((((cfg2.win 8).blk t).view.emb y) 0) ((((cfg2.win 8).blk t).view.emb y) 1) j) := by
    funext j
    show (V c main_arg3 : S4x2048x2048.Idx → BitVec 32) (((cfg2.win 3).blk t).view.emb (ix3 (0 : Fin 1) (⟨(y 1).val, hy1⟩ : Fin 128) j)) = _
    refine congrArg (V c main_arg3 : S4x2048x2048.Idx → BitVec 32) (funext fun a => Fin.ext ?_)
    match a with
    | ⟨0, _⟩ => show win2_3.index t (0 : Fin 3) * 1 + 1 * 0 = win2_8.index t (0 : Fin 3) * 1 + 1 * (y 0).val; omega
    | ⟨1, _⟩ => show win2_3.index t (1 : Fin 3) * 128 + 1 * (y 1).val = win2_8.index t (1 : Fin 3) * 128 + 1 * (y 1).val; omega
    | ⟨2, _⟩ => show win2_3.index t (2 : Fin 3) * 2048 + 1 * j.val = j.val; omega
  have e4 : (fun (h : Fin 1024) (o' : Fin 1024) => iblk2 V c 4 t (ix2 h o')) = fun (h : Fin 1024) (o' : Fin 1024) => (V c main_v1 : S1024x1024.Idx → EReal) (ix2 h o') := by
    funext h o'
    show (V c main_v1 : S1024x1024.Idx → EReal) (((cfg2.win 4).blk t).view.emb (ix2 h o')) = _
    refine congrArg (V c main_v1 : S1024x1024.Idx → EReal) (funext fun a => Fin.ext ?_)
    match a with
    | ⟨0, _⟩ => show win2_4.index t (0 : Fin 2) * 1024 + 1 * h.val = h.val; omega
    | ⟨1, _⟩ => show win2_4.index t (1 : Fin 2) * 1024 + 1 * o'.val = o'.val; omega
  have e5 : (fun (o' : Fin 1024) => iblk2 V c 5 t (ix1 o')) = fun (o' : Fin 1024) => (V c main_arg5 : S1024.Idx → EReal) (ix1 o') := by
    funext o'
    show (V c main_arg5 : S1024.Idx → EReal) (((cfg2.win 5).blk t).view.emb (ix1 o')) = _
    refine congrArg (V c main_arg5 : S1024.Idx → EReal) (funext fun a => Fin.ext ?_)
    match a with
    | ⟨0, _⟩ => show win2_5.index t (0 : Fin 1) * 1024 + 1 * o'.val = o'.val; omega
  have e6 : (fun (h : Fin 1024) (o' : Fin 1024) => iblk2 V c 6 t (ix2 h o')) = fun (h : Fin 1024) (o' : Fin 1024) => (V c main_v7 : S1024x1024.Idx → EReal) (ix2 h o') := by
    funext h o'
    show (V c main_v7 : S1024x1024.Idx → EReal) (((cfg2.win 6).blk t).view.emb (ix2 h o')) = _
    refine congrArg (V c main_v7 : S1024x1024.Idx → EReal) (funext fun a => Fin.ext ?_)
    match a with
    | ⟨0, _⟩ => show win2_6.index t (0 : Fin 2) * 1024 + 1 * h.val = h.val; omega
    | ⟨1, _⟩ => show win2_6.index t (1 : Fin 2) * 1024 + 1 * o'.val = o'.val; omega
  have e7 : (fun (o' : Fin 1024) => iblk2 V c 7 t (ix1 o')) = fun (o' : Fin 1024) => (V c main_arg11 : S1024.Idx → EReal) (ix1 o') := by
    funext o'
    show (V c main_arg11 : S1024.Idx → EReal) (((cfg2.win 7).blk t).view.emb (ix1 o')) = _
    refine congrArg (V c main_arg11 : S1024.Idx → EReal) (funext fun a => Fin.ext ?_)
    match a with
    | ⟨0, _⟩ => show win2_7.index t (0 : Fin 1) * 1024 + 1 * o'.val = o'.val; omega
  have ho : (⟨(y 2).val, hy2⟩ : Fin 1024) = (((cfg2.win 8).blk t).view.emb y) 2 :=
    Fin.ext (show (y 2).val = win2_8.index t (2 : Fin 3) * 1024 + 1 * (y 2).val by omega)
  exact entry_congr e0 e1 e2 e3 e4 e5 e6 e7 ho

/-- An entry of the array is in point `t`'s block iff each coordinate is in the block's range on its axis. -/
theorem mem_blk (t : Fin cfg2.N) (i : S4x2048x1024.Idx) :
    i ∈ ((cfg2.win 8).blk t).view.set ↔ ∀ a : Fin 3, win2_8.index t a * S1x128x1024.size a ≤ (i a).val
      ∧ (i a).val < win2_8.index t a * S1x128x1024.size a + S1x128x1024.size a := by
  show i ∈ ((View.whole main_v14).slice (win2_8.rect t)).set ↔ _
  rw [View.set_slice_whole, Rect.mem_set_unit]
  exact Iff.rfl

/-- Row `r` of batch `b` lies in the block of the point with block index `(b, r / 128, 0)`. -/
theorem cover (i : S4x2048x1024.Idx) :
    ∃ t : Fin cfg2.N, (cfg2.win 8).flush t = true ∧ i ∈ ((cfg2.win 8).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 128, by omega⟩
  have q0 : win2_8.index t (0 : Fin 3) = (i 0).val := congrFun ht 0
  have q1 : win2_8.index t (1 : Fin 3) = (i 1).val / 128 := congrFun ht 1
  have q2 : win2_8.index t (2 : Fin 3) = 0 := congrFun ht 2
  refine ⟨t, flush2_8 t, ?_⟩
  rw [mem_blk]
  intro a
  match a with
  | ⟨0, _⟩ => show win2_8.index t (0 : Fin 3) * 1 ≤ (i 0).val ∧ (i 0).val < win2_8.index t (0 : Fin 3) * 1 + 1; omega
  | ⟨1, _⟩ => show win2_8.index t (1 : Fin 3) * 128 ≤ (i 1).val ∧ (i 1).val < win2_8.index t (1 : Fin 3) * 128 + 128; omega
  | ⟨2, _⟩ => show win2_8.index t (2 : Fin 3) * 1024 ≤ (i 2).val ∧ (i 2).val < win2_8.index t (2 : Fin 3) * 1024 + 1024; omega

/-- The output array after the region: every entry is its row's. -/
theorem region2_array (c : Dev nD) :
    (dat2 (F := Ideal) V c).arrAt 8 cfg2.N
      = fused (V c main_arg0) (V c main_v11) (V c main_v13) (V c main_arg3) (V c main_v1) (V c main_arg5) (V c main_v7)
          (V c main_arg11) :=
  (dat2 (F := Ideal) V c).arrAt_eq_of_cover 8 _ (fun t _ => flushed_eq V c t) cover

end Cert.Attention.Region

end
-- ==== Proof.LinearRegions.lean ====
/-
  The two projection kernels, read as arrays.

  Each of the two kernels computes a linear layer on 8192 rows of 1024 features, 1024 rows at a time: block `t` of the
  output is rows `1024 t … 1024 t + 1023` of the left array times the whole right array, plus the bias repeated down the
  rows. Narrowing to sixteen bits is the identity over the extended reals, so entry `(r, q)` of the output array after
  the eight blocks are written back is the sum over `h` of `A (r, h) * W (h, q)`, plus `β q`.

  Per kernel: the block's payload at an entry; each input block as a part of its array; what a grid point writes back,
  as a block of the one whole-array function; every row lies in the block `r / 1024`; so the array is that function.
-/
import proofs.«112299_j31095563223601_2_alg».proof.Proof.Gen.KernelIdeal.Frame
import proofs.«112299_j31095563223601_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Attention.Rows

open Cert.KernelIdeal Cert.KernelIdeal.Gen

/-- The two zero offsets of a whole 2-axis block, and the one of a whole vector. -/
theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The projection's dimension numbers contract the left operand's columns with the right operand's rows. -/
theorem projDims_eq_plain :
    dot_S1024x1024_S1024x1024_S1024x1024_1_0_0_1_n_n = DotDims.plain 1024 1024 1024 := rfl

/-- One block of the projection at an entry: row `p` of the left block against column `q` of the right block, plus
    the bias of column `q`. Narrowing to sixteen bits changes nothing over the extended reals; the bias vector is
    laid out as one row and repeated down the rows. -/
theorem projBlock_apply (D : DotDims S1024x1024 S1024x1024 S1024x1024) (hD : D = DotDims.plain 1024 1024 1024)
    (x0 : FVec Ideal S1024x1024 .f32) (x1 : FVec Ideal S1024x1024 .bf16) (x2 : FVec Ideal S1024 .f32)
    (h0 : S1024x1024.ShapeCasts S1024x1024) (hb : FTy.bits .bf16 < FTy.bits .f32)
    (h2 : S1024.ShapeCasts S1x1024) (h3 : S1x1024.Broadcasts S1024x1024) (p q : Fin 1024) :
    (truncf .bf16 (addf (matmul D none (truncf .bf16 (shapeCast S1024x1024 x0 h0) hb) (shapeCast S1024x1024 x1 h0)
        (constant (F := Ideal) S1024x1024 .f32 0x00000000#32))
      (broadcastTo S1024x1024 (shapeCast S1x1024 x2 h2) h3)) hb : FVec Ideal S1024x1024 .bf16) (ix2 p q)
      = (∑ h : Fin 1024, x0 (ix2 p h) * x1 (ix2 h q)) + x2 (ix1 q) := by
  rw [truncf_apply, addf_apply, Cert.Lib.TwoBlocks.plain_matmul_zero_apply D hD none _ _ p q,
    broadcastTo_1b_ab_apply, shapeCast_a_1a_apply]
  simp only [truncf_apply, shapeCast_self]

/-- Rows of `A` against columns of `W`, plus the bias `β` of the column: the linear layer on 8192 rows as one array. -/
abbrev linearRows (A : S8192x1024.Idx → EReal) (W : S1024x1024.Idx → EReal) (β : S1024.Idx → EReal) :
    S8192x1024.Idx → EReal := fun idx =>
  (∑ h : Fin 1024, A (ix2 (idx 0) h) * W (ix2 h (idx 1))) + β (ix1 (idx 1))

/-- The linear layer at an index whose coordinates are `r` and `q`. -/
theorem linearRows_apply (A : S8192x1024.Idx → EReal) (W : S1024x1024.Idx → EReal) (β : S1024.Idx → EReal)
    (i : S8192x1024.Idx) (r : Fin 8192) (q : Fin 1024) (hr : (i 0).val = r.val) (hq : (i 1).val = q.val) :
    linearRows A W β i = (∑ h : Fin 1024, A (ix2 r h) * W (ix2 h q)) + β (ix1 q) := by
  have e0 : i 0 = r := Fin.ext hr
  have e1 : i 1 = q := Fin.ext hq
  show (∑ h : Fin 1024, A (ix2 (i 0) h) * W (ix2 h (i 1))) + β (ix1 (i 1)) = _
  rw [e0, e1]

/-! ## The first projection (region 0) -/

/-- What the body leaves in the output block, at an entry `y` of the block: row `y 0` of the left block against
    column `y 1` of the right block, plus the bias of column `y 1`. -/
theorem out0_3_apply (x0 : Vec Ideal S1024x1024 .f32) (x1 : Vec Ideal S1024x1024 .bf16) (x2 : Vec Ideal S1024 .f32)
    (y : S1024x1024.Idx) :
    out0_3 (F := Ideal) x0 x1 x2 y = (∑ h : Fin 1024, x0 (ix2 (y 0) h) * x1 (ix2 h (y 1))) + x2 (ix1 (y 1)) := by
  obtain ⟨p, q, rfl⟩ : ∃ (p q : Fin 1024), y = ix2 p q := ⟨y 0, y 1, eq_ix2 y⟩
  unfold out0_3
  rw [View.canon_unit_zero zeroOffsets2]
  simp only [View.ld_unit_zero (S := S1024x1024) zeroOffsets2, View.ld_unit_zero (S := S1024) zeroOffsets1]
  exact projBlock_apply _ projDims_eq_plain x0 x1 x2 _ _ _ _ p q

section Region0

variable (V : (c : Dev nD) → (b : Ref sig .tc) → Buf (Elt Ideal) ((c : Thread nD τ).loc b))

/-- The index maps, decided over the grid: at point `t` the left operand's and the output's blocks are block `t` of
    the rows and the only block of the columns; the right operand and the bias have one block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The left operand's block at point `t` is rows `1024 t … 1024 t + 1023` of its array. -/
theorem leftBlock0_apply (c : Dev nD) (t : Fin cfg0.N) (p h : Fin 1024) (r : Fin 8192) (hr : r.val = t.val * 1024 + p.val) :
    (iblk0 (F := Ideal) V c 0 t : Vec Ideal S1024x1024 .f32) (ix2 p h) = (V c main_v8 : S8192x1024.Idx → EReal) (ix2 r h) := by
  obtain ⟨e0, e1, -⟩ := blockIndex0 t
  unfold iblk0
  rw [View.read_apply]
  show (V c main_v8 : S8192x1024.Idx → EReal) _ = (V c main_v8 : S8192x1024.Idx → EReal) _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * h.val = h.val; rw [e1]; omega

/-- The right operand's one block is its whole array. -/
theorem rightBlock0_apply (c : Dev nD) (t : Fin cfg0.N) (h q : Fin 1024) :
    (iblk0 (F := Ideal) V c 1 t : Vec Ideal S1024x1024 .bf16) (ix2 h q) = (V c main_v3 : S1024x1024.Idx → EReal) (ix2 h q) := by
  obtain ⟨-, -, e0, e1, -⟩ := blockIndex0 t
  unfold iblk0
  rw [View.read_apply]
  show (V c main_v3 : S1024x1024.Idx → EReal) _ = (V c main_v3 : S1024x1024.Idx → EReal) _
  congr 1
  funext a
  apply Fin.ext
  match a with
  | ⟨0, _⟩ => show win0_1.index t (0 : Fin 2) * 1024 + 1 * h.val = h.val; rw [e0]; omega
  | ⟨1, _⟩ => show win0_1.index t (1 : Fin 2) * 1024 + 1 * q.val = q.val; rw [e1]; omega

/-- The bias's one block is its whole array. -/
theorem biasBlock0_apply (c : Dev nD) (t : Fin cfg0.N) (q : Fin 1024) :
    (iblk0 (F := Ideal) V c 2 t : Vec Ideal S1024 .f32) (ix1 q) = (V c main_arg7 : S1024.Idx → EReal) (ix1 q) := by
  obtain ⟨-, -, -, -, e0, -⟩ := blockIndex0 t
  unfold iblk0
  rw [View.read_apply]
  show (V c main_arg7 : S1024.Idx → EReal) _ = (V c main_arg7 : S1024.Idx → EReal) _
  congr 1
  funext a
  apply Fin.ext
  match a with
  | ⟨0, _⟩ => show win0_2.index t (0 : Fin 1) * 1024 + 1 * q.val = q.val; rw [e0]; omega

/-- What point `t` writes back is block `t` of the linear layer of the arrays as the region finds them: entry `(p, q)`
    of the block is row `1024 t + p`, column `q` of the array. -/
theorem flushed0_eq (c : Dev nD) (t : Fin cfg0.N) :
    (dat0 (F := Ideal) V c).flushed 3 t
      = ((cfg0.win 3).blk t).view.read (Elt Ideal) (linearRows (V c main_v8) (V c main_v3) (V c main_arg7)) := by
  show (cfg0.win 3).cut (grid0.coords t) ((dat0 V c).after 3 t) = _
  rw [after0_3]
  funext j
  obtain ⟨-, -, -, -, -, e0, e1⟩ := blockIndex0 t
  have hj0 : (j 0).val < 1024 := (j 0).isLt
  have hj1 : (j 1).val < 1024 := (j 1).isLt
  have ht : t.val < 8 := t.isLt
  show out0_3 (iblk0 V c 0 t) (iblk0 V c 1 t) (iblk0 V c 2 t) ((cfg0.win 3).xinj (grid0.coords t) j)
    = linearRows (V c main_v8) (V c main_v3) (V c main_arg7) (((cfg0.win 3).blk t).view.emb j)
  rw [out0_3_apply, linearRows_apply _ _ _ _ (⟨t.val * 1024 + (j 0).val, by omega⟩ : Fin 8192) (⟨(j 1).val, hj1⟩ : Fin 1024)
    (by show win0_3.index t (0 : Fin 2) * 1024 + 1 * (j 0).val = t.val * 1024 + (j 0).val; rw [e0]; omega)
    (by show win0_3.index t (1 : Fin 2) * 1024 + 1 * (j 1).val = (j 1).val; rw [e1]; omega)]
  refine congrArg₂ (· + ·) (Finset.sum_congr rfl fun h _ => congrArg₂ (· * ·) ?_ ?_) ?_
  · exact leftBlock0_apply V c t _ h _ rfl
  · exact rightBlock0_apply V c t h _
  · exact biasBlock0_apply V c t _

/-- An index of the output array is in point `t`'s block iff each coordinate is in the block's range on its axis. -/
theorem mem_outBlock0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every row `r` of the 8192 lies in block `r / 1024`, which is written back. -/
theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  refine ⟨⟨(i 0).val / 1024, by rw [hN]; omega⟩, flush0_3 _, ?_⟩
  obtain ⟨-, -, -, -, -, e0, e1⟩ := blockIndex0 ⟨(i 0).val / 1024, by rw [hN]; omega⟩
  rw [mem_outBlock0]
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e1]; omega

/-- The first projection's output array after the region: the linear layer of the three arrays the region found. -/
theorem region0_array (c : Dev nD) :
    (dat0 (F := Ideal) V c).arrAt 3 cfg0.N = linearRows (V c main_v8) (V c main_v3) (V c main_arg7) :=
  (dat0 V c).arrAt_eq_of_cover 3 (linearRows (V c main_v8) (V c main_v3) (V c main_arg7)) (fun t _ => flushed0_eq V c t) (cover0)

end Region0

/-! ## The second projection (region 1) -/

/-- What the body leaves in the output block, at an entry `y` of the block: row `y 0` of the left block against
    column `y 1` of the right block, plus the bias of column `y 1`. -/
theorem out1_3_apply (x0 : Vec Ideal S1024x1024 .f32) (x1 : Vec Ideal S1024x1024 .bf16) (x2 : Vec Ideal S1024 .f32)
    (y : S1024x1024.Idx) :
    out1_3 (F := Ideal) x0 x1 x2 y = (∑ h : Fin 1024, x0 (ix2 (y 0) h) * x1 (ix2 h (y 1))) + x2 (ix1 (y 1)) := by
  obtain ⟨p, q, rfl⟩ : ∃ (p q : Fin 1024), y = ix2 p q := ⟨y 0, y 1, eq_ix2 y⟩
  unfold out1_3
  rw [View.canon_unit_zero zeroOffsets2]
  simp only [View.ld_unit_zero (S := S1024x1024) zeroOffsets2, View.ld_unit_zero (S := S1024) zeroOffsets1]
  exact projBlock_apply _ projDims_eq_plain x0 x1 x2 _ _ _ _ p q

section Region1

variable (V : (c : Dev nD) → (b : Ref sig .tc) → Buf (Elt Ideal) ((c : Thread nD τ).loc b))

/-- The index maps, decided over the grid: at point `t` the left operand's and the output's blocks are block `t` of
    the rows and the only block of the columns; the right operand and the bias have one block. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The left operand's block at point `t` is rows `1024 t … 1024 t + 1023` of its array. -/
theorem leftBlock1_apply (c : Dev nD) (t : Fin cfg1.N) (p h : Fin 1024) (r : Fin 8192) (hr : r.val = t.val * 1024 + p.val) :
    (iblk1 (F := Ideal) V c 0 t : Vec Ideal S1024x1024 .f32) (ix2 p h) = (V c main_v9 : S8192x1024.Idx → EReal) (ix2 r h) := by
  obtain ⟨e0, e1, -⟩ := blockIndex1 t
  unfold iblk1
  rw [View.read_apply]
  show (V c main_v9 : S8192x1024.Idx → EReal) _ = (V c main_v9 : S8192x1024.Idx → EReal) _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * h.val = h.val; rw [e1]; omega

/-- The right operand's one block is its whole array. -/
theorem rightBlock1_apply (c : Dev nD) (t : Fin cfg1.N) (h q : Fin 1024) :
    (iblk1 (F := Ideal) V c 1 t : Vec Ideal S1024x1024 .bf16) (ix2 h q) = (V c main_v5 : S1024x1024.Idx → EReal) (ix2 h q) := by
  obtain ⟨-, -, e0, e1, -⟩ := blockIndex1 t
  unfold iblk1
  rw [View.read_apply]
  show (V c main_v5 : S1024x1024.Idx → EReal) _ = (V c main_v5 : S1024x1024.Idx → EReal) _
  congr 1
  funext a
  apply Fin.ext
  match a with
  | ⟨0, _⟩ => show win1_1.index t (0 : Fin 2) * 1024 + 1 * h.val = h.val; rw [e0]; omega
  | ⟨1, _⟩ => show win1_1.index t (1 : Fin 2) * 1024 + 1 * q.val = q.val; rw [e1]; omega

/-- The bias's one block is its whole array. -/
theorem biasBlock1_apply (c : Dev nD) (t : Fin cfg1.N) (q : Fin 1024) :
    (iblk1 (F := Ideal) V c 2 t : Vec Ideal S1024 .f32) (ix1 q) = (V c main_arg9 : S1024.Idx → EReal) (ix1 q) := by
  obtain ⟨-, -, -, -, e0, -⟩ := blockIndex1 t
  unfold iblk1
  rw [View.read_apply]
  show (V c main_arg9 : S1024.Idx → EReal) _ = (V c main_arg9 : S1024.Idx → EReal) _
  congr 1
  funext a
  apply Fin.ext
  match a with
  | ⟨0, _⟩ => show win1_2.index t (0 : Fin 1) * 1024 + 1 * q.val = q.val; rw [e0]; omega

/-- What point `t` writes back is block `t` of the linear layer of the arrays as the region finds them: entry `(p, q)`
    of the block is row `1024 t + p`, column `q` of the array. -/
theorem flushed1_eq (c : Dev nD) (t : Fin cfg1.N) :
    (dat1 (F := Ideal) V c).flushed 3 t
      = ((cfg1.win 3).blk t).view.read (Elt Ideal) (linearRows (V c main_v9) (V c main_v5) (V c main_arg9)) := by
  show (cfg1.win 3).cut (grid1.coords t) ((dat1 V c).after 3 t) = _
  rw [after1_3]
  funext j
  obtain ⟨-, -, -, -, -, e0, e1⟩ := blockIndex1 t
  have hj0 : (j 0).val < 1024 := (j 0).isLt
  have hj1 : (j 1).val < 1024 := (j 1).isLt
  have ht : t.val < 8 := t.isLt
  show out1_3 (iblk1 V c 0 t) (iblk1 V c 1 t) (iblk1 V c 2 t) ((cfg1.win 3).xinj (grid1.coords t) j)
    = linearRows (V c main_v9) (V c main_v5) (V c main_arg9) (((cfg1.win 3).blk t).view.emb j)
  rw [out1_3_apply, linearRows_apply _ _ _ _ (⟨t.val * 1024 + (j 0).val, by omega⟩ : Fin 8192) (⟨(j 1).val, hj1⟩ : Fin 1024)
    (by show win1_3.index t (0 : Fin 2) * 1024 + 1 * (j 0).val = t.val * 1024 + (j 0).val; rw [e0]; omega)
    (by show win1_3.index t (1 : Fin 2) * 1024 + 1 * (j 1).val = (j 1).val; rw [e1]; omega)]
  refine congrArg₂ (· + ·) (Finset.sum_congr rfl fun h _ => congrArg₂ (· * ·) ?_ ?_) ?_
  · exact leftBlock1_apply V c t _ h _ rfl
  · exact rightBlock1_apply V c t h _
  · exact biasBlock1_apply V c t _

/-- An index of the output array is in point `t`'s block iff each coordinate is in the block's range on its axis. -/
theorem mem_outBlock1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v12).slice (win1_3.rect t)).set ↔ _
  rw [View.set_slice_whole, Rect.mem_set_unit]
  exact Iff.rfl

/-- Every row `r` of the 8192 lies in block `r / 1024`, which is written back. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 8 := N_1
  refine ⟨⟨(i 0).val / 1024, by rw [hN]; omega⟩, flush1_3 _, ?_⟩
  obtain ⟨-, -, -, -, -, e0, e1⟩ := blockIndex1 ⟨(i 0).val / 1024, by rw [hN]; omega⟩
  rw [mem_outBlock1]
  intro a
  match a with
  | ⟨0, _⟩ =>
    show win1_3.index _ (0 : Fin 2) * 1024 ≤ (i 0).val ∧ (i 0).val < win1_3.index _ (0 : Fin 2) * 1024 + 1024
    rw [e0]; show (i 0).val / 1024 * 1024 ≤ (i 0).val ∧ (i 0).val < (i 0).val / 1024 * 1024 + 1024; omega
  | ⟨1, _⟩ =>
    show win1_3.index _ (1 : Fin 2) * 1024 ≤ (i 1).val ∧ (i 1).val < win1_3.index _ (1 : Fin 2) * 1024 + 1024
    rw [e1]; omega

/-- The second projection's output array after the region: the linear layer of the three arrays the region found. -/
theorem region1_array (c : Dev nD) :
    (dat1 (F := Ideal) V c).arrAt 3 cfg1.N = linearRows (V c main_v9) (V c main_v5) (V c main_arg9) :=
  (dat1 V c).arrAt_eq_of_cover 3 (linearRows (V c main_v9) (V c main_v5) (V c main_arg9)) (fun t _ => flushed1_eq V c t) (cover1)

end Region1

end Cert.Attention.Rows

end
-- ==== Proof.LibUnitAxes.lean ====
/-
  Arrays of three axes with unit axes added, dropped or spread, and sums along one of their axes, read at an entry,
  for any sizes.

  Row-major order fixes what each re-shaping does to an entry: a unit axis put in or taken out moves nothing, so the
  entry at `(i, j)` of an `a × b` table is the entry `(i, 0, j)` of the same table kept as `a × 1 × b`; a table whose
  middle (or first, or last) axis has one entry, spread along that axis, shows that one entry at every position; the
  first two axes of an `a × b × c` array folded into one put entry `(i, j, d)` at row `i * b + j`; and swapping the
  first two axes swaps the first two coordinates. A sum along one axis of a three-axis array is the sum over that
  axis's coordinate with the other two held.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.UnitAxes

open Idealize.ShloMosaic Idealize.ShloMosaic.ValueIdx

variable {α : Type}

/-! ## Unit axes put in and taken out -/

/-- A `1 × 1 × a` array flattened to a length-`a` vector reads, at `i`, the array's entry `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `a × b` table kept as `a × b × 1` reads, at `(i, j, u)`, the table at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `a × b` table kept as `a × 1 × b` reads, at `(i, u, j)`, the table at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The first two axes of an `a × b × c` array folded into one of `n = a * b` rows: row `i * b + j` at `d` is the array
    at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- And back: an `n × c` table of `n = a * b` rows unfolded to `a × b × c` reads, at `(i, j, d)`, row `i * b + j` at `d`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-! ## One entry spread along an axis -/

/-- An `a × 1` column spread to `a × b` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `a × b × 1` array spread to `a × b × c` reads, at `(i, j, d)`, the entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `a × 1 × c` array spread to `a × b × c` reads, at `(i, j, d)`, the entry `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `1 × b × c` array spread to `a × b × c` reads, at `(i, j, d)`, the entry `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-! ## The first two axes swapped -/

/-- An `a × b × c` array with its first two axes swapped reads, at `(j, i, d)`, the array at `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun ax => match ax with | ⟨0, _⟩ => rfl | ⟨1, _⟩ => rfl | ⟨2, _⟩ => rfl

/-! ## Sums along one axis -/

/-- The index of an `a × b × c` array over `(i, d)` with the middle coordinate `k` put back. -/
theorem lift_mid {a b c : ℕ} (h : (⟨3, ![a, b, c]⟩ : Shape).Reduces [1] ⟨2, ![a, c]⟩) (i : Fin a) (d : Fin c) (k : Fin b) :
    h.lift (ix2 i d) k = ix3 i k d := by
  funext ax; apply Fin.ext
  match ax with
  | ⟨0, _⟩ => rfl
  | ⟨1, _⟩ => rfl
  | ⟨2, _⟩ => rfl

/-- The index of an `a × b × c` array over `(j, d)` with the first coordinate `k` put back. -/
theorem lift_first {a b c : ℕ} (h : (⟨3, ![a, b, c]⟩ : Shape).Reduces [0] ⟨2, ![b, c]⟩) (j : Fin b) (d : Fin c) (k : Fin a) :
    h.lift (ix2 j d) k = ix3 k j d := by
  funext ax; apply Fin.ext
  match ax with
  | ⟨0, _⟩ => rfl
  | ⟨1, _⟩ => rfl
  | ⟨2, _⟩ => rfl

/-- The index of an `a × c` table over `d` with the row `k` put back. -/
theorem lift_rows {a c : ℕ} (h : (⟨2, ![a, c]⟩ : Shape).Reduces [0] ⟨1, ![c]⟩) (d : Fin c) (k : Fin a) :
    h.lift (ix1 d) k = ix2 k d := by
  funext ax; apply Fin.ext
  match ax with
  | ⟨0, _⟩ => rfl
  | ⟨1, _⟩ => rfl

/-- An f32 sum along the middle axis of an `a × b × c` array, from the zero word, is at `(i, d)` the sum over `k` of
    the entries `(i, k, d)`. -/
theorem sumMid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (d : Fin c) :
    multiReduction .add [1] ⟨2, ![a, c]⟩ src 0x00000000#32 h hφ hacc (ix2 i d) = ∑ k : Fin b, src (ix3 i k d) :=
  (Ideal.multiReduction_add_single src 0x00000000#32 h hφ hacc (ix2 i d)).trans
    (Finset.sum_congr rfl fun k _ => congrArg src (lift_mid h i d k))

/-- An f32 sum along the first axis of an `a × b × c` array, from the zero word, is at `(j, d)` the sum over `k` of
    the entries `(k, j, d)`. -/
theorem sumFirst_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (j : Fin b) (d : Fin c) :
    multiReduction .add [0] ⟨2, ![b, c]⟩ src 0x00000000#32 h hφ hacc (ix2 j d) = ∑ k : Fin a, src (ix3 k j d) :=
  (Ideal.multiReduction_add_single src 0x00000000#32 h hφ hacc (ix2 j d)).trans
    (Finset.sum_congr rfl fun k _ => congrArg src (lift_first h j d k))

/-- An f32 sum down the rows of an `a × c` table, from the zero word, is at `d` the sum over `k` of the entries `(k, d)`. -/
theorem sumRows_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = FKind.add.neutral .f32 hφ) (d : Fin c) :
    multiReduction .add [0] ⟨1, ![c]⟩ src 0x00000000#32 h hφ hacc (ix1 d) = ∑ k : Fin a, src (ix2 k d) :=
  (Ideal.multiReduction_add_single src 0x00000000#32 h hφ hacc (ix1 d)).trans
    (Finset.sum_congr rfl fun k _ => congrArg src (lift_rows h d k))

end Cert.Lib.UnitAxes

end
-- ==== Proof.HostValues.lean ====
/-
  What the host leaves in the arrays the three kernels read, entry by entry.

  Before the first kernel the host transposes each weight matrix and narrows it (narrowing changes nothing over the
  extended reals), and folds the batch and position axes of the key and value inputs into one axis of rows: row
  `b * 2048 + s` is position `s` of batch `b`. After each of the first two kernels it unfolds that kernel's
  result back to batch, position, feature. Every other array a kernel reads is an argument, as launched.
-/
import proofs.«112299_j31095563223601_2_alg».proof.Proof.Gen.KernelIdeal.Frame
import proofs.«112299_j31095563223601_2_alg».proof.Proof.LibUnitAxes
import Idealize.ShloMosaic.Lib.ValueLayout

noncomputable section

namespace Cert.Attention.Host

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ### What the first kernel reads -/

/-- The key rows the first kernel reads: row `b * 2048 + s` is position `s` of batch `b` of the key input. -/
theorem keyRows_apply (b : Fin 4) (s : Fin 2048) (r : Fin 8192) (hr : r.val = b.val * 2048 + s.val) (h : Fin 1024) :
    (V1 (F := Ideal) m ρ c main_v8 : S8192x1024.Idx → EReal) (ix2 r h)
      = (m ((c : Thread nD τ).loc main_arg1) : S4x2048x1024.Idx → EReal) (ix3 b s h) := by
  have e : (V1 (F := Ideal) m ρ c main_v8 : S8192x1024.Idx → EReal)
      = shapeCast S8192x1024 (m ((c : Thread nD τ).loc main_arg1) : S4x2048x1024.Idx → EReal)
          shapeCasts_S4x2048x1024_S8192x1024 := by
    dsimp only [V1, W1, W0, hostOps0]; after_results; rfl
  rw [e]
  exact Cert.Lib.UnitAxes.shapeCast_abc_nc_apply _ _ b s h r hr

/-- The key weights the first kernel reads: the key weight matrix transposed. -/
theorem keyWeights_apply (h o : Fin 1024) :
    (V1 (F := Ideal) m ρ c main_v3 : S1024x1024.Idx → EReal) (ix2 h o)
      = (m ((c : Thread nD τ).loc main_arg6) : S1024x1024.Idx → EReal) (ix2 o h) := by
  have e : (V1 (F := Ideal) m ρ c main_v3 : S1024x1024.Idx → EReal)
      = truncf (F := Ideal) .bf16 (transpose S1024x1024 [1, 0]
          (m ((c : Thread nD τ).loc main_arg6) : S1024x1024.Idx → EReal) transposes_S1024x1024_S1024x1024_1_0)
          bitsLt_bf16_f32 := by
    dsimp only [V1, W1, W0, hostOps0]; after_results
  rw [e, truncf_apply]
  exact transpose_ix2_apply _ _ h o

/-- The key bias the first kernel reads is the argument. -/
theorem keyBias_eq : V1 (F := Ideal) m ρ c main_arg7 = m ((c : Thread nD τ).loc main_arg7) := by
  dsimp only [V1, W1, W0, hostOps0]; after_results

/-! ### What the second kernel reads

The one host operation between the first two kernels writes neither of these arrays, and none is an array of the
first kernel, so each holds what it held when the first kernel was entered. -/

/-- When the second kernel is entered, the folded value input holds what it held when the first kernel was: the host
    operation in between does not write it and it is not an array of the first kernel. -/
theorem valueRows_entry : W3 (F := Ideal) m ρ c (Proc.devRef .tc main_v9) = W1 m ρ c (Proc.devRef .tc main_v9) := by
  have e : W3 (F := Ideal) m ρ c (Proc.devRef .tc main_v9) = W2 m ρ c (Proc.devRef .tc main_v9) := by
    dsimp only [W3, hostOps1]; after_results
  rw [e, W2_of_ne m ρ c main_v9 (by decide)]

/-- Likewise the transposed value weight matrix. -/
theorem valueWeights_entry : W3 (F := Ideal) m ρ c (Proc.devRef .tc main_v5) = W1 m ρ c (Proc.devRef .tc main_v5) := by
  have e : W3 (F := Ideal) m ρ c (Proc.devRef .tc main_v5) = W2 m ρ c (Proc.devRef .tc main_v5) := by
    dsimp only [W3, hostOps1]; after_results
  rw [e, W2_of_ne m ρ c main_v5 (by decide)]

/-- Likewise the value bias. -/
theorem valueBias_entry : W3 (F := Ideal) m ρ c (Proc.devRef .tc main_arg9) = W1 m ρ c (Proc.devRef .tc main_arg9) := by
  have e : W3 (F := Ideal) m ρ c (Proc.devRef .tc main_arg9) = W2 m ρ c (Proc.devRef .tc main_arg9) := by
    dsimp only [W3, hostOps1]; after_results
  rw [e, W2_of_ne m ρ c main_arg9 (by decide)]

/-- The value rows the second kernel reads: row `b * 2048 + s` is position `s` of batch `b` of the value input. -/
theorem valueRows_apply (b : Fin 4) (s : Fin 2048) (r : Fin 8192) (hr : r.val = b.val * 2048 + s.val) (h : Fin 1024) :
    (V3 (F := Ideal) m ρ c main_v9 : S8192x1024.Idx → EReal) (ix2 r h)
      = (m ((c : Thread nD τ).loc main_arg2) : S4x2048x1024.Idx → EReal) (ix3 b s h) := by
  have e : (V3 (F := Ideal) m ρ c main_v9 : S8192x1024.Idx → EReal)
      = shapeCast S8192x1024 (m ((c : Thread nD τ).loc main_arg2) : S4x2048x1024.Idx → EReal)
          shapeCasts_S4x2048x1024_S8192x1024 := by
    refine (valueRows_entry m ρ c).trans ?_
    dsimp only [W1, W0, hostOps0]; after_results; rfl
  rw [e]
  exact Cert.Lib.UnitAxes.shapeCast_abc_nc_apply _ _ b s h r hr

/-- The value weights the second kernel reads: the value weight matrix transposed. -/
theorem valueWeights_apply (h o : Fin 1024) :
    (V3 (F := Ideal) m ρ c main_v5 : S1024x1024.Idx → EReal) (ix2 h o)
      = (m ((c : Thread nD τ).loc main_arg8) : S1024x1024.Idx → EReal) (ix2 o h) := by
  have e : (V3 (F := Ideal) m ρ c main_v5 : S1024x1024.Idx → EReal)
      = truncf (F := Ideal) .bf16 (transpose S1024x1024 [1, 0]
          (m ((c : Thread nD τ).loc main_arg8) : S1024x1024.Idx → EReal) transposes_S1024x1024_S1024x1024_1_0)
          bitsLt_bf16_f32 := by
    refine (valueWeights_entry m ρ c).trans ?_
    dsimp only [W1, W0, hostOps0]; after_results
  rw [e, truncf_apply]
  exact transpose_ix2_apply _ _ h o

/-- The value bias the second kernel reads is the argument. -/
theorem valueBias_eq : V3 (F := Ideal) m ρ c main_arg9 = m ((c : Thread nD τ).loc main_arg9) := by
  refine (valueBias_entry m ρ c).trans ?_
  dsimp only [W1, W0, hostOps0]; after_results

/-! ### What the third kernel reads

Of the arrays the third kernel reads, the host operations after the first kernel write only the two unfolded
projections, and the first two kernels' arrays include none of the others: each of those holds what it held when the
first kernel was entered. -/

/-- When the third kernel is entered, the query input holds what it held when the first kernel was: no host operation after the first kernel writes it and it is an array of neither of the first two kernels. -/
theorem query_entry : W5 (F := Ideal) m ρ c (Proc.devRef .tc main_arg0) = W1 m ρ c (Proc.devRef .tc main_arg0) := by
  have e5 : W5 (F := Ideal) m ρ c (Proc.devRef .tc main_arg0) = W4 m ρ c (Proc.devRef .tc main_arg0) := by
    dsimp only [W5, hostOps2]; after_results
  have e3 : W3 (F := Ideal) m ρ c (Proc.devRef .tc main_arg0) = W2 m ρ c (Proc.devRef .tc main_arg0) := by
    dsimp only [W3, hostOps1]; after_results
  rw [e5, W4_of_ne m ρ c main_arg0 (by decide), e3, W2_of_ne m ρ c main_arg0 (by decide)]

/-- When the third kernel is entered, the mask holds what it held when the first kernel was: no host operation after the first kernel writes it and it is an array of neither of the first two kernels. -/
theorem mask_entry : W5 (F := Ideal) m ρ c (Proc.devRef .tc main_arg3) = W1 m ρ c (Proc.devRef .tc main_arg3) := by
  have e5 : W5 (F := Ideal) m ρ c (Proc.devRef .tc main_arg3) = W4 m ρ c (Proc.devRef .tc main_arg3) := by
    dsimp only [W5, hostOps2]; after_results
  have e3 : W3 (F := Ideal) m ρ c (Proc.devRef .tc main_arg3) = W2 m ρ c (Proc.devRef .tc main_arg3) := by
    dsimp only [W3, hostOps1]; after_results
  rw [e5, W4_of_ne m ρ c main_arg3 (by decide), e3, W2_of_ne m ρ c main_arg3 (by decide)]

/-- When the third kernel is entered, the query bias holds what it held when the first kernel was: no host operation after the first kernel writes it and it is an array of neither of the first two kernels. -/
theorem queryBias_entry : W5 (F := Ideal) m ρ c (Proc.devRef .tc main_arg5) = W1 m ρ c (Proc.devRef .tc main_arg5) := by
  have e5 : W5 (F := Ideal) m ρ c (Proc.devRef .tc main_arg5) = W4 m ρ c (Proc.devRef .tc main_arg5) := by
    dsimp only [W5, hostOps2]; after_results
  have e3 : W3 (F := Ideal) m ρ c (Proc.devRef .tc main_arg5) = W2 m ρ c (Proc.devRef .tc main_arg5) := by
    dsimp only [W3, hostOps1]; after_results
  rw [e5, W4_of_ne m ρ c main_arg5 (by decide), e3, W2_of_ne m ρ c main_arg5 (by decide)]

/-- When the third kernel is entered, the output bias holds what it held when the first kernel was: no host operation after the first kernel writes it and it is an array of neither of the first two kernels. -/
theorem outBias_entry : W5 (F := Ideal) m ρ c (Proc.devRef .tc main_arg11) = W1 m ρ c (Proc.devRef .tc main_arg11) := by
  have e5 : W5 (F := Ideal) m ρ c (Proc.devRef .tc main_arg11) = W4 m ρ c (Proc.devRef .tc main_arg11) := by
    dsimp only [W5, hostOps2]; after_results
  have e3 : W3 (F := Ideal) m ρ c (Proc.devRef .tc main_arg11) = W2 m ρ c (Proc.devRef .tc main_arg11) := by
    dsimp only [W3, hostOps1]; after_results
  rw [e5, W4_of_ne m ρ c main_arg11 (by decide), e3, W2_of_ne m ρ c main_arg11 (by decide)]

/-- When the third kernel is entered, the transposed query weight matrix holds what it held when the first kernel was: no host operation after the first kernel writes it and it is an array of neither of the first two kernels. -/
theorem queryWeights_entry : W5 (F := Ideal) m ρ c (Proc.devRef .tc main_v1) = W1 m ρ c (Proc.devRef .tc main_v1) := by
  have e5 : W5 (F := Ideal) m ρ c (Proc.devRef .tc main_v1) = W4 m ρ c (Proc.devRef .tc main_v1) := by
    dsimp only [W5, hostOps2]; after_results
  have e3 : W3 (F := Ideal) m ρ c (Proc.devRef .tc main_v1) = W2 m ρ c (Proc.devRef .tc main_v1) := by
    dsimp only [W3, hostOps1]; after_results
  rw [e5, W4_of_ne m ρ c main_v1 (by decide), e3, W2_of_ne m ρ c main_v1 (by decide)]

/-- When the third kernel is entered, the transposed output weight matrix holds what it held when the first kernel was: no host operation after the first kernel writes it and it is an array of neither of the first two kernels. -/
theorem outWeights_entry : W5 (F := Ideal) m ρ c (Proc.devRef .tc main_v7) = W1 m ρ c (Proc.devRef .tc main_v7) := by
  have e5 : W5 (F := Ideal) m ρ c (Proc.devRef .tc main_v7) = W4 m ρ c (Proc.devRef .tc main_v7) := by
    dsimp only [W5, hostOps2]; after_results
  have e3 : W3 (F := Ideal) m ρ c (Proc.devRef .tc main_v7) = W2 m ρ c (Proc.devRef .tc main_v7) := by
    dsimp only [W3, hostOps1]; after_results
  rw [e5, W4_of_ne m ρ c main_v7 (by decide), e3, W2_of_ne m ρ c main_v7 (by decide)]

/-- The query input the third kernel reads is the argument. -/
theorem query_eq : V5 (F := Ideal) m ρ c main_arg0 = m ((c : Thread nD τ).loc main_arg0) := by
  refine (query_entry m ρ c).trans ?_
  dsimp only [W1, W0, hostOps0]; after_results

/-- The mask the third kernel reads is the argument. -/
theorem mask_eq : V5 (F := Ideal) m ρ c main_arg3 = m ((c : Thread nD τ).loc main_arg3) := by
  refine (mask_entry m ρ c).trans ?_
  dsimp only [W1, W0, hostOps0]; after_results

/-- The query bias the third kernel reads is the argument. -/
theorem queryBias_eq : V5 (F := Ideal) m ρ c main_arg5 = m ((c : Thread nD τ).loc main_arg5) := by
  refine (queryBias_entry m ρ c).trans ?_
  dsimp only [W1, W0, hostOps0]; after_results

/-- The output bias the third kernel reads is the argument. -/
theorem outBias_eq : V5 (F := Ideal) m ρ c main_arg11 = m ((c : Thread nD τ).loc main_arg11) := by
  refine (outBias_entry m ρ c).trans ?_
  dsimp only [W1, W0, hostOps0]; after_results

/-- The query weights the third kernel reads: the query weight matrix transposed. -/
theorem queryWeights_apply (h o : Fin 1024) :
    (V5 (F := Ideal) m ρ c main_v1 : S1024x1024.Idx → EReal) (ix2 h o)
      = (m ((c : Thread nD τ).loc main_arg4) : S1024x1024.Idx → EReal) (ix2 o h) := by
  have e : (V5 (F := Ideal) m ρ c main_v1 : S1024x1024.Idx → EReal)
      = truncf (F := Ideal) .bf16 (transpose S1024x1024 [1, 0]
          (m ((c : Thread nD τ).loc main_arg4) : S1024x1024.Idx → EReal) transposes_S1024x1024_S1024x1024_1_0)
          bitsLt_bf16_f32 := by
    refine (queryWeights_entry m ρ c).trans ?_
    dsimp only [W1, W0, hostOps0]; after_results
  rw [e, truncf_apply]
  exact transpose_ix2_apply _ _ h o

/-- The output weights the third kernel reads: the output weight matrix transposed. -/
theorem outWeights_apply (h o : Fin 1024) :
    (V5 (F := Ideal) m ρ c main_v7 : S1024x1024.Idx → EReal) (ix2 h o)
      = (m ((c : Thread nD τ).loc main_arg10) : S1024x1024.Idx → EReal) (ix2 o h) := by
  have e : (V5 (F := Ideal) m ρ c main_v7 : S1024x1024.Idx → EReal)
      = truncf (F := Ideal) .bf16 (transpose S1024x1024 [1, 0]
          (m ((c : Thread nD τ).loc main_arg10) : S1024x1024.Idx → EReal) transposes_S1024x1024_S1024x1024_1_0)
          bitsLt_bf16_f32 := by
    refine (outWeights_entry m ρ c).trans ?_
    dsimp only [W1, W0, hostOps0]; after_results
  rw [e, truncf_apply]
  exact transpose_ix2_apply _ _ h o

/-- The projected keys the third kernel reads: entry `(b, s, o)` is row `b * 2048 + s` at `o` of what the first kernel
    leaves in its result array. -/
theorem keyProj_apply (b : Fin 4) (s : Fin 2048) (r : Fin 8192) (hr : r.val = b.val * 2048 + s.val) (o : Fin 1024) :
    (V5 (F := Ideal) m ρ c main_v11 : S4x2048x1024.Idx → EReal) (ix3 b s o)
      = ((dat0 (F := Ideal) (V1 m ρ) c).arrAt 3 cfg0.N : S8192x1024.Idx → EReal) (ix2 r o) := by
  have e5 : W5 (F := Ideal) m ρ c (Proc.devRef .tc main_v11) = W4 m ρ c (Proc.devRef .tc main_v11) := by
    dsimp only [W5, hostOps2]; after_results
  have e3 : (W3 (F := Ideal) m ρ c (Proc.devRef .tc main_v11) : S4x2048x1024.Idx → EReal)
      = shapeCast S4x2048x1024 (W2 m ρ c (Proc.devRef .tc main_v10) : S8192x1024.Idx → EReal)
          shapeCasts_S8192x1024_S4x2048x1024 := by
    dsimp only [W3, hostOps1]; after_results; rfl
  have e : (V5 (F := Ideal) m ρ c main_v11 : S4x2048x1024.Idx → EReal)
      = shapeCast S4x2048x1024 ((dat0 (F := Ideal) (V1 m ρ) c).arrAt 3 cfg0.N : S8192x1024.Idx → EReal)
          shapeCasts_S8192x1024_S4x2048x1024 := by
    refine (e5.trans (W4_of_ne m ρ c main_v11 (by decide))).trans (e3.trans ?_)
    rw [W2_arr m ρ c 3]
  rw [e]
  exact Cert.Lib.UnitAxes.shapeCast_nc_abc_apply _ _ b s o r hr

/-- The projected values the third kernel reads: entry `(b, s, o)` is row `b * 2048 + s` at `o` of what the second
    kernel leaves in its result array. -/
theorem valueProj_apply (b : Fin 4) (s : Fin 2048) (r : Fin 8192) (hr : r.val = b.val * 2048 + s.val) (o : Fin 1024) :
    (V5 (F := Ideal) m ρ c main_v13 : S4x2048x1024.Idx → EReal) (ix3 b s o)
      = ((dat1 (F := Ideal) (V3 m ρ) c).arrAt 3 cfg1.N : S8192x1024.Idx → EReal) (ix2 r o) := by
  have e5 : (W5 (F := Ideal) m ρ c (Proc.devRef .tc main_v13) : S4x2048x1024.Idx → EReal)
      = shapeCast S4x2048x1024 (W4 m ρ c (Proc.devRef .tc main_v12) : S8192x1024.Idx → EReal)
          shapeCasts_S8192x1024_S4x2048x1024 := by
    dsimp only [W5, hostOps2]; after_results; rfl
  have e : (V5 (F := Ideal) m ρ c main_v13 : S4x2048x1024.Idx → EReal)
      = shapeCast S4x2048x1024 ((dat1 (F := Ideal) (V3 m ρ) c).arrAt 3 cfg1.N : S8192x1024.Idx → EReal)
          shapeCasts_S8192x1024_S4x2048x1024 := by
    refine e5.trans ?_
    rw [W4_arr m ρ c 3]
  rw [e]
  exact Cert.Lib.UnitAxes.shapeCast_nc_abc_apply _ _ b s o r hr

end Cert.Attention.Host

end
-- ==== Proof.KernelRun.lean ====
/-
  The run of the idealized kernel program with its result named.

  From any launch memory with zero counters, every weakly fair execution of the program on the TensorCores terminates,
  and in every final state the result array holds what the last boundary's contents give it, while the twelve argument
  arrays are as launched. The last boundary's contents at the result array are what the third kernel's write-backs leave
  there: the fold of its 64 blocks over the contents the kernel was entered from.
-/
import proofs.«112299_j31095563223601_2_alg».proof.Proof.Gen.KernelIdeal.Frame

set_option maxRecDepth 16384

noncomputable section

namespace Cert.Attention.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem are found by unifying its conclusion with this statement, which takes
-- unfolding plain definitions inside the type of an unknown
set_option backward.isDefEq.respectTransparency.types false in
/-- The run: every weakly fair execution from the launch memory terminates, and every final state has the result array at
    the last boundary's contents and the twelve argument arrays as launched. The segments, the thread states and the
    reading of the last thread state against the final state are the frame's; the final reading keeps the result
    array's buffer beside the arguments'. -/
theorem run_result : θ_run defs (onTc (τ := τ) (main (F := F))) ⟨m, fun _ => 0, ρ⟩ (fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v14 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

/-- The last boundary's contents at the result array: what the third kernel's write-backs leave in its output window's
    array, folded over the contents the kernel was entered from. -/
theorem result_eq (c : Dev nD) : W6 m ρ c (Proc.devRef .tc main_v14) = (dat2 (V5 m ρ) c).arrAt 8 cfg2.N :=
  W6_arr m ρ c 8

end Cert.Attention.Run

end
-- ==== Proof.KernelValue.lean ====
/-
  The attention kernel program's result array is the attention layer of its twelve arguments.

  The program runs three kernels. Two project the keys and the values: each reshapes a batch of sequences into 8192
  rows, multiplies the rows by the transposed weight matrix and adds the bias; the result, reshaped back, is the
  projection of the layer. The third kernel reads the queries, these two projections, the mask and the transposed query
  and output weights, and leaves in each entry of its output the attention of the entry's row: the same sums, maxima
  and quotients as the layer, term for term. No law of arithmetic is used: a change of float format is the identity
  over the extended reals, and transposing the weights beforehand only renames the summation index's place.
-/
import proofs.«112299_j31095563223601_2_alg».proof.Proof.AttentionRegion
import proofs.«112299_j31095563223601_2_alg».proof.Proof.LinearRegions
import proofs.«112299_j31095563223601_2_alg».proof.Proof.HostValues
import proofs.«112299_j31095563223601_2_alg».proof.Proof.KernelRun

set_option maxRecDepth 16384

noncomputable section

open scoped BigOperators

namespace Cert.Attention.Kernel

open Cert.KernelIdeal Cert.KernelIdeal.Gen Idealize.ShloMosaic Idealize.ShloMosaic.TcCoe Idealize.ShloMosaic.ValueIdx Idealize.SL.Sem
open Cert.Attention

/-- An entry built from the rows of the layer's own projections is the layer's entry: only names are unfolded. -/
theorem entry_eq_attentionAt (query key value : Seqs) (mask : Mask) (Wq : Weights) (bq : Bias) (Wk : Weights) (bk : Bias)
    (Wv : Weights) (bv : Bias) (Wo : Weights) (bo : Bias) (b : Fin 4) (i : Fin 2048) (o : Fin 1024) :
    Region.entry (fun h => query (ix3 b i h)) (fun j h => linear key Wk bk b j h) (fun j c => linear value Wv bv b j c)
        (fun j => mask (ix3 b i j)) (fun h o' => Wq (ix2 o' h)) (fun o' => bq (ix1 o')) (fun c o' => Wo (ix2 o' c))
        (fun o' => bo (ix1 o')) o
      = attentionAt query key value mask Wq bq Wk bk Wv bv Wo bo b i o := rfl

variable (m : (ℓ : Loc nD τ sig) → Buf (Elt Ideal) ℓ) (ρ : Dev nD → PrngReg) (c : Dev nD)

/-- Row `b * 2048 + s` of the first projection kernel's output is position `s` of batch `b` of the projected keys. -/
theorem keys_apply (b : Fin 4) (s : Fin 2048) (o : Fin 1024) :
    (V5 m ρ c main_v11 : S4x2048x1024.Idx → EReal) (ix3 b s o)
      = linear (m (c.tc.loc main_arg1)) (m (c.tc.loc main_arg6)) (m (c.tc.loc main_arg7)) b s o := by
  have hr : b.val * 2048 + s.val < 8192 := by have := b.isLt; have := s.isLt; omega
  rw [Host.keyProj_apply m ρ c b s ⟨b.val * 2048 + s.val, hr⟩ rfl o, Rows.region0_array (V1 m ρ) c,
    Rows.linearRows_apply _ _ _ _ ⟨b.val * 2048 + s.val, hr⟩ o rfl rfl, Host.keyBias_eq m ρ c]
  unfold linear
  refine congrArg₂ (fun x y : EReal => x + y) (Finset.sum_congr rfl fun h _ => ?_) rfl
  rw [Host.keyRows_apply m ρ c b s ⟨b.val * 2048 + s.val, hr⟩ rfl h, Host.keyWeights_apply m ρ c h o]

/-- The same for the second projection kernel and the values. -/
theorem values_apply (b : Fin 4) (s : Fin 2048) (o : Fin 1024) :
    (V5 m ρ c main_v13 : S4x2048x1024.Idx → EReal) (ix3 b s o)
      = linear (m (c.tc.loc main_arg2)) (m (c.tc.loc main_arg8)) (m (c.tc.loc main_arg9)) b s o := by
  have hr : b.val * 2048 + s.val < 8192 := by have := b.isLt; have := s.isLt; omega
  rw [Host.valueProj_apply m ρ c b s ⟨b.val * 2048 + s.val, hr⟩ rfl o, Rows.region1_array (V3 m ρ) c,
    Rows.linearRows_apply _ _ _ _ ⟨b.val * 2048 + s.val, hr⟩ o rfl rfl, Host.valueBias_eq m ρ c]
  unfold linear
  refine congrArg₂ (fun x y : EReal => x + y) (Finset.sum_congr rfl fun h _ => ?_) rfl
  rw [Host.valueRows_apply m ρ c b s ⟨b.val * 2048 + s.val, hr⟩ rfl h, Host.valueWeights_apply m ρ c h o]

/-- The result array after the run is the attention layer of the launch memory's arguments. -/
theorem result_value :
    W6 m ρ c (Proc.devRef .tc main_v14)
      = attention (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) (m (c.tc.loc main_arg10)) (m (c.tc.loc main_arg11)) := by
  rw [Run.result_eq m ρ c, Region.region2_array (V5 m ρ) c]
  funext idx
  obtain ⟨b, i, o, rfl⟩ : ∃ (b : Fin 4) (i : Fin 2048) (o : Fin 1024), idx = ix3 b i o := ⟨idx 0, idx 1, idx 2, eq_ix3 idx⟩
  show Region.entry _ _ _ _ _ _ _ _ o = attentionAt _ _ _ _ _ _ _ _ _ _ _ _ b i o
  rw [← entry_eq_attentionAt]
  refine Region.entry_congr ?_ ?_ ?_ ?_ ?_ ?_ ?_ ?_ rfl
  · rw [Host.query_eq m ρ c]
  · funext j h; exact keys_apply m ρ c b j h
  · funext j h; exact values_apply m ρ c b j h
  · rw [Host.mask_eq m ρ c]
  · funext h o'; exact Host.queryWeights_apply m ρ c h o'
  · rw [Host.queryBias_eq m ρ c]
  · funext h o'; exact Host.outWeights_apply m ρ c h o'
  · rw [Host.outBias_eq m ρ c]

end Cert.Attention.Kernel

end
-- ==== Proof.LibBatchRows.lean ====
/-
  Row operations on a stack of matrices (an `n × a × k` array), read at an entry, for any sizes.

  The host sums or maximises along the last axis, giving one number per row of each matrix of the stack; keeps that
  number as an `n × a × 1` column stack; and spreads the column stack back along the lanes. A scalar spread over any
  shape reads the scalar everywhere, and one `1 × a × b` slab spread over the stack repeats the slab in every matrix.
-/
import Idealize.ShloMosaic.Lib.Pipeline.Value
import Idealize.ShloMosaic.Lib.ValueIdx
import Idealize.ShloMosaic.PureOps.Ideal.Laws

noncomputable section

open scoped BigOperators

namespace Cert.Lib.BatchRows

open Idealize.ShloMosaic Idealize.ShloMosaic.ValueIdx

variable {α : Type}

/-- A scalar spread over any shape reads the scalar's one entry everywhere. -/
theorem splat_apply {s : Shape} (h : (⟨0, ![]⟩ : Shape).BroadcastsInDim s (![] : Fin 0 → Fin s.rank))
    (y : (⟨0, ![]⟩ : Shape).Idx → α) (j : s.Idx) : broadcastInDim s ![] h y j = y ix0 :=
  broadcastInDim_apply _ h y j ix0 (fun ax => ax.elim0)

/-- An `n × a` table kept as an `n × a × 1` column stack reads, at `(t, i, u)`, the table at `(t, i)`. -/
theorem keep_apply {n a : ℕ} (h : (⟨2, ![n, a]⟩ : Shape).BroadcastsInDim ⟨3, ![n, a, 1]⟩ ![0, 1])
    (y : (⟨2, ![n, a]⟩ : Shape).Idx → α) (t : Fin n) (i : Fin a) (u : Fin 1) :
    broadcastInDim ⟨3, ![n, a, 1]⟩ ![0, 1] h y (ix3 t i u) = y (ix2 t i) :=
  broadcastInDim_apply _ h y (ix3 t i u) (ix2 t i) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl)

/-- An `n × a × 1` column stack spread along `b` lanes reads, at `(t, i, c)`, the column entry of row `i` of matrix `t`. -/
theorem lanes_apply {n a b : ℕ} (h : (⟨3, ![n, a, 1]⟩ : Shape).BroadcastsInDim ⟨3, ![n, a, b]⟩ ![0, 1, 2])
    (y : (⟨3, ![n, a, 1]⟩ : Shape).Idx → α) (t : Fin n) (i : Fin a) (c : Fin b) :
    broadcastInDim ⟨3, ![n, a, b]⟩ ![0, 1, 2] h y (ix3 t i c) = y (ix3 t i (0 : Fin 1)) :=
  broadcastInDim_apply _ h y (ix3 t i c) (ix3 t i (0 : Fin 1)) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl
    | ⟨2, _⟩ => by
      show (0 : ℕ) = if (1 : ℕ) = 1 then 0 else c.val
      rw [if_pos rfl])

/-- One `1 × a × b` slab spread over a stack of `n` reads, at `(t, i, c)`, the slab at `(0, i, c)`. -/
theorem slab_apply {n a b : ℕ} (h : (⟨3, ![1, a, b]⟩ : Shape).BroadcastsInDim ⟨3, ![n, a, b]⟩ ![0, 1, 2])
    (y : (⟨3, ![1, a, b]⟩ : Shape).Idx → α) (t : Fin n) (i : Fin a) (c : Fin b) :
    broadcastInDim ⟨3, ![n, a, b]⟩ ![0, 1, 2] h y (ix3 t i c) = y (ix3 (0 : Fin 1) i c) :=
  broadcastInDim_apply _ h y (ix3 t i c) (ix3 (0 : Fin 1) i c) (fun ax => match ax with
    | ⟨0, _⟩ => by
      show (0 : ℕ) = if (1 : ℕ) = 1 then 0 else t.val
      rw [if_pos rfl]
    | ⟨1, _⟩ => by
      show i.val = if a = 1 then 0 else i.val
      split
      · have := i.isLt; omega
      · rfl
    | ⟨2, _⟩ => by
      show c.val = if b = 1 then 0 else c.val
      split
      · have := c.isLt; omega
      · rfl)

/-- The index of the stack over the reduced index `(t, i)` with the lane `c` put back is `(t, i, c)`. -/
theorem lift_last {n a k : ℕ} (h : (⟨3, ![n, a, k]⟩ : Shape).Reduces [2] ⟨2, ![n, a]⟩) (t : Fin n) (i : Fin a)
    (c : Fin ((⟨3, ![n, a, k]⟩ : Shape).size 2)) : h.lift (ix2 t i) c = ix3 t i (⟨c.val, c.isLt⟩ : Fin k) := by
  funext ax; apply Fin.ext
  match ax with
  | ⟨0, _⟩ => rfl
  | ⟨1, _⟩ => rfl
  | ⟨2, _⟩ => rfl

/-- The host's sum along the last axis reads, at `(t, i)`, the initial value plus the sum of row `i` of matrix `t`. -/
theorem hostSum_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduceAdd x v h' hu (ix2 t i) = v ix0 + ∑ c : Fin k, x (ix3 t i c) := by
  simp only [Host.reduceAdd, Ideal.hostReduceAdd_def]
  rw [Ideal.hostReduceAdd_single h' h]
  refine congrArg₂ (· + ·) (congrArg v (eq_ix0 _)) ?_
  exact Finset.sum_congr rfl fun c _ => congrArg x (lift_last h t i c)

/-- The host's maximum along the last axis reads, at `(t, i)`, the fold of `max` from the initial value over row `i` of
    matrix `t`. -/
theorem hostMax_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduce FloatOps.maximumf x v h' hu (ix2 t i)
      = (Finset.univ : Finset (Fin k)).fold max (v ix0) (fun c => x (ix3 t i c)) := by
  rw [Host.reduce_eq_fold_single FloatOps.maximumf x v h' h hu]
  have hv : v (Shape.Idx.first hu) = v ix0 := congrArg v (eq_ix0 _)
  have hf : (x ∘ h.lift (ix2 t i)) = fun c : Fin k => x (ix3 t i c) := funext fun c => congrArg x (lift_last h t i c)
  rw [hv]
  exact congrArg (fun f => Finset.fold max (v ix0) f (Finset.univ : Finset (Fin k))) hf

end Cert.Lib.BatchRows

end
-- ==== Proof.LibSqrtScale.lean ====
/-
  Dividing by the square root of 1024 is multiplying by one thirty-second, on every extended real.

  The f32 word `0x44800000` is the real 1024, whose square root is 32, and the word `0x3D000000` is the real 1/32. A
  quotient by a nonzero real is the product with its reciprocal also at the infinities, so a score divided by the
  square root of a width of 1024 and the same score multiplied by the folded constant agree without any finiteness.
-/
import Idealize.ShloMosaic.PureOps.Ideal

noncomputable section

namespace Cert.Lib.SqrtScale

open Idealize.ShloMosaic

/-- The word `0x44800000` is the real `1024`. -/
theorem word_1024 : Ideal.ofBits .f32 0x44800000#32 = ((1024 : ℝ) : EReal) := by
  simp [Ideal.ofBits, Ideal.ieee, -EReal.coe_mul]; norm_num

/-- The word `0x3D000000` is the real `1/32`. -/
theorem word_inv32 : Ideal.ofBits .f32 0x3D000000#32 = ((1 / 32 : ℝ) : EReal) := by
  simp [Ideal.ofBits, Ideal.ieee, -EReal.coe_mul]; norm_num

/-- The square root of `1024` is `32`. -/
theorem sqrt_1024 : Ideal.sqrt (Ideal.ofBits .f32 0x44800000#32) = ((32 : ℝ) : EReal) := by
  rw [word_1024, Ideal.sqrt_coe, if_neg (by norm_num)]
  have h : Real.sqrt 1024 = 32 := by
    rw [show (1024 : ℝ) = 32 * 32 by norm_num]; exact Real.sqrt_mul_self (by norm_num)
  rw [h]

/-- Dividing by the square root of `1024` is multiplying by the word of `1/32`. -/
theorem scale (x : EReal) :
    Ideal.div x (Ideal.sqrt (Ideal.ofBits .f32 0x44800000#32)) = x * Ideal.ofBits .f32 0x3D000000#32 := by
  rw [sqrt_1024, word_inv32]; exact Ideal.div_coe (by norm_num) x

end Cert.Lib.SqrtScale

end
-- ==== Proof.RefAttention.lean ====
/-
  The reference program computes the attention layer of the specification, entry by entry.

  Each intermediate array of the program is read at its coordinates and identified with the matching function of
  the specification: the three projections, the masked and scaled scores, the row maxima, the unnormalised weights,
  the row sums and the normalised weights, the weighted average, and the last projection.
-/
import proofs.«112299_j31095563223601_2_alg».proof.Proof.Gen.ReferenceIdeal.Read
import proofs.«112299_j31095563223601_2_alg».proof.Proof.Spec
import proofs.«112299_j31095563223601_2_alg».proof.Proof.LibBatchRows
import proofs.«112299_j31095563223601_2_alg».proof.Proof.LibFlags
import proofs.«112299_j31095563223601_2_alg».proof.Proof.LibRowMax
import proofs.«112299_j31095563223601_2_alg».proof.Proof.LibSqrtScale

noncomputable section

open scoped BigOperators

namespace Cert.Attention.Ref

open Idealize.ShloMosaic Idealize.ShloMosaic.ValueIdx Cert.ReferenceIdeal Cert.ReferenceIdeal.Read Cert.Attention
open Cert.Lib.SqrtScale (scale)

/-- The arrays of the program's types, abbreviated. -/
abbrev A3 := (⟨S4x2048x1024, .f32⟩ : BufTy).Contents (Elt Ideal)
abbrev AM := (⟨S4x2048x2048, .i32⟩ : BufTy).Contents (Elt Ideal)
abbrev AW := (⟨S1024x1024, .f32⟩ : BufTy).Contents (Elt Ideal)
abbrev AB := (⟨S1024, .f32⟩ : BufTy).Contents (Elt Ideal)

/-! ### The projections -/

/-- The query projection at `(b, s, o)`: row `o` of the weights against the features of position `s`, plus the bias. -/
theorem proj_q (x0 : A3) (x4 : AW) (x5 : AB) (b : Fin 4) (s : Fin 2048) (o : Fin 1024) :
    val_main_v3 (F := Ideal) x0 x4 x5 (ix3 b s o) = linear x0 x4 x5 b s o := by
  rw [val_main_v3_apply, Ideal.addf_def, val_main_v0_apply, val_main_v2_apply, val_main_v1_apply]
  show _ = (∑ h : Fin 1024, x0 (ix3 b s h) * x4 (ix2 o h)) + x5 (ix1 o)
  refine congrArg₂ (· + ·) (Finset.sum_congr rfl fun k _ => congrArg₂ (· * ·) (congrArg x0 ?_) (congrArg x4 ?_))
    (congrArg x5 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key projection at `(b, s, o)`. -/
theorem proj_k (x1 : A3) (x6 : AW) (x7 : AB) (b : Fin 4) (s : Fin 2048) (o : Fin 1024) :
    val_main_v7 (F := Ideal) x1 x6 x7 (ix3 b s o) = linear x1 x6 x7 b s o := by
  rw [val_main_v7_apply, Ideal.addf_def, val_main_v4_apply, val_main_v6_apply, val_main_v5_apply]
  show _ = (∑ h : Fin 1024, x1 (ix3 b s h) * x6 (ix2 o h)) + x7 (ix1 o)
  refine congrArg₂ (· + ·) (Finset.sum_congr rfl fun k _ => congrArg₂ (· * ·) (congrArg x1 ?_) (congrArg x6 ?_))
    (congrArg x7 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value projection at `(b, s, o)`. -/
theorem proj_v (x2 : A3) (x8 : AW) (x9 : AB) (b : Fin 4) (s : Fin 2048) (o : Fin 1024) :
    val_main_v11 (F := Ideal) x2 x8 x9 (ix3 b s o) = linear x2 x8 x9 b s o := by
  rw [val_main_v11_apply, Ideal.addf_def, val_main_v8_apply, val_main_v10_apply, val_main_v9_apply]
  show _ = (∑ h : Fin 1024, x2 (ix3 b s h) * x8 (ix2 o h)) + x9 (ix1 o)
  refine congrArg₂ (· + ·) (Finset.sum_congr rfl fun k _ => congrArg₂ (· * ·) (congrArg x2 ?_) (congrArg x8 ?_))
    (congrArg x9 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-! ### The scale and the scores -/

/-- The inner products of projected queries and keys at `(b, i, j)`. -/
theorem dots (x0 x1 : A3) (x4 : AW) (x5 : AB) (x6 : AW) (x7 : AB) (b : Fin 4) (i j : Fin 2048) :
    val_main_v12 (F := Ideal) x0 x1 x4 x5 x6 x7 (ix3 b i j)
      = ∑ h : Fin 1024, linear x0 x4 x5 b i h * linear x1 x6 x7 b j h := by
  rw [val_main_v12_apply]
  refine Finset.sum_congr rfl fun k _ => ?_
  have hl : lidx_main_v12 (ix3 b i j) k = ix3 b i k :=
    funext fun a => Fin.ext (by match a with | ⟨0, _⟩ => rfl | ⟨1, _⟩ => rfl | ⟨2, _⟩ => rfl)
  have hr : ridx_main_v12 (ix3 b i j) k = ix3 b j k :=
    funext fun a => Fin.ext (by match a with | ⟨0, _⟩ => rfl | ⟨1, _⟩ => rfl | ⟨2, _⟩ => rfl)
  rw [hl, hr, proj_q, proj_k]

/-- The scaled inner products at `(b, i, j)`. -/
theorem scaled (x0 x1 : A3) (x4 : AW) (x5 : AB) (x6 : AW) (x7 : AB) (b : Fin 4) (i j : Fin 2048) :
    val_main_v15 (F := Ideal) x0 x1 x4 x5 x6 x7 (ix3 b i j)
      = (∑ h : Fin 1024, linear x0 x4 x5 b i h * linear x1 x6 x7 b j h) * Ideal.ofBits .f32 0x3D000000#32 := by
  rw [val_main_v15_apply, Ideal.hostDivf_def, dots, val_main_v14_apply, val_main_v13_apply, val_main_cst_apply,
    Ideal.hostUnary_sqrt_def, Ideal.ofBits_def, scale]

/-- The masked, scaled scores at `(b, i, j)`. -/
theorem scores (x0 x1 : A3) (x3 : AM) (x4 : AW) (x5 : AB) (x6 : AW) (x7 : AB) (b : Fin 4) (i j : Fin 2048) :
    val_main_v18 (F := Ideal) x0 x1 x3 x4 x5 x6 x7 (ix3 b i j)
      = score (linear x0 x4 x5) (linear x1 x6 x7) x3 b i j := by
  rw [val_main_v18_apply, val_main_v17_apply, val_main_v16_apply, val_main_c_apply, Cert.Lib.Flags.select_cmpi_eq,
    val_main_call0_v0_apply, val_main_cst_0_apply, Ideal.ofBits_def, scaled]
  rfl

/-! ### The row maxima, the weights, the row sums -/

/-- The row maximum at `(b, i)`: the fold of `max` over the row from the word of minus infinity; the further maximum
    against that word changes nothing. -/
theorem rowMaxes (x0 x1 : A3) (x3 : AM) (x4 : AW) (x5 : AB) (x6 : AW) (x7 : AB) (b : Fin 4) (i : Fin 2048) :
    val_main_v21 (F := Ideal) x0 x1 x3 x4 x5 x6 x7 (ix2 b i)
      = rowMax (score (linear x0 x4 x5) (linear x1 x6 x7) x3) b i := by
  rw [val_main_v21_apply, Ideal.maximumf_def, val_main_v20_apply, val_main_cst_2_apply, Ideal.ofBits_def,
    Cert.Lib.RowMax.max_negInf]
  unfold val_main_v19
  refine (Cert.Lib.BatchRows.hostMax_apply (n := 4) (a := 2048) (k := 2048) _ _ _ (by decide) _ b i).trans ?_
  rw [val_main_cst_1_apply, Ideal.ofBits_def]
  unfold rowMax
  exact congrArg (fun f => Finset.fold max (Ideal.ofBits .f32 0xFF800000#32) f (Finset.univ : Finset (Fin 2048)))
    (funext fun c => scores x0 x1 x3 x4 x5 x6 x7 b i c)

/-- The unnormalised weight at `(b, i, j)`: the exponential of the score less its row's maximum. -/
theorem weights (x0 x1 : A3) (x3 : AM) (x4 : AW) (x5 : AB) (x6 : AW) (x7 : AB) (b : Fin 4) (i j : Fin 2048) :
    val_main_v25 (F := Ideal) x0 x1 x3 x4 x5 x6 x7 (ix3 b i j)
      = weight (score (linear x0 x4 x5) (linear x1 x6 x7) x3) b i j := by
  have hk : idx_main_v22 (idx_main_v23 (ix3 b i j)) = ix2 b i :=
    funext fun a => Fin.ext (by match a with | ⟨0, _⟩ => rfl | ⟨1, _⟩ => rfl)
  rw [val_main_v25_apply, Ideal.hostUnary_exp_def, val_main_v24_apply, Ideal.subf_def, val_main_v23_apply,
    val_main_v22_apply, hk, rowMaxes, scores]
  rfl

/-- The row sum at `(b, i)`: the sum of the row's unnormalised weights (the initial value is the zero word). -/
theorem rowSums (x0 x1 : A3) (x3 : AM) (x4 : AW) (x5 : AB) (x6 : AW) (x7 : AB) (b : Fin 4) (i : Fin 2048) :
    val_main_v26 (F := Ideal) x0 x1 x3 x4 x5 x6 x7 (ix2 b i)
      = ∑ j' : Fin 2048, weight (score (linear x0 x4 x5) (linear x1 x6 x7) x3) b i j' := by
  rw [val_main_v26_apply, val_main_cst_3_apply, Ideal.ofBits_def, Ideal.ofBits_zero_f32, zero_add]
  refine Finset.sum_congr rfl fun k _ => ?_
  have hk : idx_main_v26 (ix2 b i) k = ix3 b i k :=
    funext fun a => Fin.ext (by match a with | ⟨0, _⟩ => rfl | ⟨1, _⟩ => rfl | ⟨2, _⟩ => rfl)
  rw [hk, weights]

/-- The normalised weight at `(b, i, j)`: the unnormalised one over its row's sum. -/
theorem probs (x0 x1 : A3) (x3 : AM) (x4 : AW) (x5 : AB) (x6 : AW) (x7 : AB) (b : Fin 4) (i j : Fin 2048) :
    val_main_v29 (F := Ideal) x0 x1 x3 x4 x5 x6 x7 (ix3 b i j)
      = prob (score (linear x0 x4 x5) (linear x1 x6 x7) x3) b i j := by
  have hk : idx_main_v27 (idx_main_v28 (ix3 b i j)) = ix2 b i :=
    funext fun a => Fin.ext (by match a with | ⟨0, _⟩ => rfl | ⟨1, _⟩ => rfl)
  rw [val_main_v29_apply, Ideal.hostDivf_def, val_main_v28_apply, val_main_v27_apply, hk, rowSums, weights]
  rfl

/-! ### The weighted average and the last projection -/

/-- The weighted average of the projected values at `(b, i, c)`. -/
theorem contexts (x0 x1 x2 : A3) (x3 : AM) (x4 : AW) (x5 : AB) (x6 : AW) (x7 : AB) (x8 : AW) (x9 : AB)
    (b : Fin 4) (i : Fin 2048) (c : Fin 1024) :
    val_main_v30 (F := Ideal) x0 x1 x2 x3 x4 x5 x6 x7 x8 x9 (ix3 b i c)
      = context (prob (score (linear x0 x4 x5) (linear x1 x6 x7) x3)) (linear x2 x8 x9) b i c := by
  rw [val_main_v30_apply]
  show _ = ∑ j : Fin 2048, prob (score (linear x0 x4 x5) (linear x1 x6 x7) x3) b i j * linear x2 x8 x9 b j c
  refine Finset.sum_congr rfl fun k _ => ?_
  have hl : lidx_main_v30 (ix3 b i c) k = ix3 b i k :=
    funext fun a => Fin.ext (by match a with | ⟨0, _⟩ => rfl | ⟨1, _⟩ => rfl | ⟨2, _⟩ => rfl)
  have hr : ridx_main_v30 (ix3 b i c) k = ix3 b k c :=
    funext fun a => Fin.ext (by match a with | ⟨0, _⟩ => rfl | ⟨1, _⟩ => rfl | ⟨2, _⟩ => rfl)
  rw [hl, hr, probs, proj_v]

/-- The program's result at `(b, i, o)` is the attention layer there. -/
theorem reference_at (x0 x1 x2 : A3) (x3 : AM) (x4 : AW) (x5 : AB) (x6 : AW) (x7 : AB) (x8 : AW) (x9 : AB)
    (x10 : AW) (x11 : AB) (b : Fin 4) (i : Fin 2048) (o : Fin 1024) :
    val_main_v34 (F := Ideal) x0 x1 x2 x3 x4 x5 x6 x7 x8 x9 x10 x11 (ix3 b i o)
      = attentionAt x0 x1 x2 x3 x4 x5 x6 x7 x8 x9 x10 x11 b i o := by
  rw [val_main_v34_apply, Ideal.addf_def, val_main_v31_apply, val_main_v33_apply, val_main_v32_apply]
  show _ = (∑ c : Fin 1024,
      context (prob (score (linear x0 x4 x5) (linear x1 x6 x7) x3)) (linear x2 x8 x9) b i c * x10 (ix2 o c))
    + x11 (ix1 o)
  refine congrArg₂ (· + ·) (Finset.sum_congr rfl fun k _ => ?_) (congrArg x11 ?_)
  · have hl : lidx_main_v31 (ix3 b i o) k = ix3 b i k :=
      funext fun a => Fin.ext (by match a with | ⟨0, _⟩ => rfl | ⟨1, _⟩ => rfl | ⟨2, _⟩ => rfl)
    have hr : ridx_main_v31 (ix3 b i o) k = ix2 o k :=
      funext fun a => Fin.ext (by match a with | ⟨0, _⟩ => rfl | ⟨1, _⟩ => rfl)
    rw [hl, hr, contexts]
  · exact funext fun a => Fin.ext (by match a with | ⟨0, _⟩ => rfl)

/-- The reference program computes the attention layer of the specification. -/
theorem reference_eq (x0 x1 x2 : (⟨S4x2048x1024, .f32⟩ : BufTy).Contents (Elt Ideal))
    (x3 : (⟨S4x2048x2048, .i32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal)) :
    Cert.ReferenceIdeal.Read.val_main_v34 (F := Ideal) x0 x1 x2 x3 x4 x5 x6 x7 x8 x9 x10 x11
      = Cert.Attention.attention x0 x1 x2 x3 x4 x5 x6 x7 x8 x9 x10 x11 := by
  funext idx
  obtain ⟨b, i, o, rfl⟩ : ∃ (b : Fin 4) (i : Fin 2048) (o : Fin 1024), idx = ix3 b i o :=
    ⟨idx 0, idx 1, idx 2, eq_ix3 idx⟩
  exact reference_at x0 x1 x2 x3 x4 x5 x6 x7 x8 x9 x10 x11 b i o

end Cert.Attention.Ref

end
-- ==== Proof.lean ====
/-
  The proof of `Cert.Claim`: a fused attention kernel program against the plain attention layer.

  The kernel program projects the keys and the values with one kernel each (rows times the transposed weights, plus a
  bias), and a third kernel projects a block of query rows, scores it against every key row of the batch, replaces the
  scores the mask zeroes by a fixed large negative number, normalises each row of scores (subtract the row's maximum,
  exponentiate, divide by the row's sum), averages the value rows with those weights and projects the average. The
  reference computes the same layer with whole-array contractions. Over the extended reals the two are the same sums,
  maxima and quotients entry by entry: both sides are shown equal to one specification (`Cert.Attention.attention`).
  The kernel scales the scores by the word of one thirty-second where the reference divides by the square root of 1024;
  these agree on every extended real. The finiteness of the inputs is not used by the value claim.

  The three frames: the two kernel programs' by the generated frame certificates; the reference's by its generated run
  with the result dropped. The idealization rewrote no operation, so there is nothing to preserve.
-/
import proofs.«112299_j31095563223601_2_alg».proof.Defs
import proofs.«112299_j31095563223601_2_alg».proof.Proof.Gen.Kernel
import proofs.«112299_j31095563223601_2_alg».proof.Proof.Gen.Kernel.Skeleton
import proofs.«112299_j31095563223601_2_alg».proof.Proof.Gen.Kernel.Launch
import proofs.«112299_j31095563223601_2_alg».proof.Proof.Gen.Kernel.Points
import proofs.«112299_j31095563223601_2_alg».proof.Proof.Gen.Kernel.Frame
import proofs.«112299_j31095563223601_2_alg».proof.Proof.Gen.KernelIdeal
import proofs.«112299_j31095563223601_2_alg».proof.Proof.Gen.KernelIdeal.Skeleton
import proofs.«112299_j31095563223601_2_alg».proof.Proof.Gen.KernelIdeal.Launch
import proofs.«112299_j31095563223601_2_alg».proof.Proof.Gen.KernelIdeal.Points
import proofs.«112299_j31095563223601_2_alg».proof.Proof.Gen.KernelIdeal.Frame
import proofs.«112299_j31095563223601_2_alg».proof.Proof.Gen.ReferenceIdeal
import proofs.«112299_j31095563223601_2_alg».proof.Proof.Gen.Pre_finite_inputs
import proofs.«112299_j31095563223601_2_alg».proof.Proof.Gen.ReferenceIdeal.Run
import proofs.«112299_j31095563223601_2_alg».proof.Proof.Gen.ReferenceIdeal.Read
import proofs.«112299_j31095563223601_2_alg».proof.Proof.KernelValue
import proofs.«112299_j31095563223601_2_alg».proof.Proof.RefAttention
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the attention layer of their (agreeing) arguments in the result array. -/
theorem algebraic : Cert.algebraic_KernelIdeal_ReferenceIdeal := by
  intro m ρ m' ρ' _ hagree
  refine ⟨fun c => Cert.Attention.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Attention.Kernel.result_value m ρ c), (h c).2⟩)
      (Cert.Attention.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v34_eq, Cert.Attention.Ref.reference_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
